-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_arg2)) (v2 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_v55) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10240 : Shape := ⟨2, ![8192, 10240]⟩
abbrev S1024x10240 : Shape := ⟨2, ![1024, 10240]⟩
abbrev S1024x1024 : Shape := ⟨2, ![1024, 1024]⟩
abbrev S128x1024 : Shape := ⟨2, ![128, 1024]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S8192x10240 : S_.BroadcastsInDim S8192x10240 (![] : Fin 0 → Fin S8192x10240.rank)
  reducesTo_S8192x10240_S_d0_1 : S8192x10240.ReducesTo [0, 1] S_
  h_S_ : 0 < S_.numel
  bcast_S_S1024x10240 : S_.BroadcastsInDim S1024x10240 (![] : Fin 0 → Fin S1024x10240.rank)
  reducesTo_S1024x10240_S_d0_1 : S1024x10240.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S128x1024 .f32) (main_arg5 : FVec F S128 .f32) (main_arg6 : FVec F S64x128 .f32) (main_arg7 : FVec F S64 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S128x1024 .f32 := Host.absf main_arg4
  let main_cst_6 : FVec F S_ .f32 := constant S_ .f32 0x7F800000#32
  let main_v20 : FVec F S128x1024 .f32 := broadcastInDim S128x1024 ![] bcast_S_S128x1024 main_cst_6
  let main_v21 : IVec S128x1024 1 := cmpf .olt main_v19 main_v20
  let main_c_7 : IVec S_ 1 := constantI S_ 1 1#1
  let main_v22 : IVec S_ 1 := (fun x v => Host.reduce IntOp.andi x v reducesTo_S128x1024_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_v33

def fn {F : FTy → Type} [FloatOps F] (main_arg0 : FVec F S8192x10240 .f32) (main_arg1 : FVec F S1024x10240 .f32) (main_arg2 : FVec F S1024x1024 .f32) (main_arg3 : FVec F S1024x1024 .f32) (main_arg4 : FVec F S128x1024 .f32) (main_arg5 : FVec F S128 .f32) (main_arg6 : FVec F S64x128 .f32) (main_arg7 : FVec F S64 .f32) : IVec S_ 1 :=
  let main_v0 : FVec F S8192x10240 .f32 := Host.absf main_arg0
  let main_cst : FVec F S_ .f32 := constant S_ .f32 0x7F800000#32
  let main_v1 : FVec F S8192x10240 .f32 := broadcastInDim S8192x10240 ![] bcast_S_S8192x10240 main_cst
  let main_v2 : IVec S8192x10240 1 := cmpf .olt main_v0 main_v1
  let main_c : IVec S_ 1 := constantI S_ 1 1#1
  let main_v3 : IVec S_ 1 := (fun x v => Host.reduce IntOp.andi x v reducesTo_S8192x10240_S_d0_1 h_S_) main_v2 main_c
  let main_v4 : FVec F S1024x10240 .f32 := Host.absf main_arg1
  let main_cst_0 : FVec F S_ .f32 := constant S_ .f32 0x7F800000#32
  let main_v5 : FVec F S1024x10240 .f32 := broadcastInDim S1024x10240 ![] bcast_S_S1024x10240 main_cst_0
  let main_v6 : IVec S1024x10240 1 := cmpf .olt main_v4 main_v5
  let main_c_1 : IVec S_ 1 := constantI S_ 1 1#1
  let main_v7 : IVec S_ 1 := (fun x v => Host.reduce IntOp.andi x v reducesTo_S1024x10240_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S8192x10240 : Shape := ⟨2, ![8192, 10240]⟩
abbrev S1024x10240 : Shape := ⟨2, ![1024, 10240]⟩
abbrev S1024x1024 : Shape := ⟨2, ![1024, 1024]⟩
abbrev S128x1024 : Shape := ⟨2, ![128, 1024]⟩
abbrev S128 : Shape := ⟨1, ![128]⟩
abbrev S64x128 : Shape := ⟨2, ![64, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S8192x100 : Shape := ⟨2, ![8192, 100]⟩
abbrev S8192x10240x1 : Shape := ⟨3, ![8192, 10240, 1]⟩
abbrev S8192x10240x2 : Shape := ⟨3, ![8192, 10240, 2]⟩
abbrev S10240x1024 : Shape := ⟨2, ![10240, 1024]⟩
abbrev S8192x1024 : Shape := ⟨2, ![8192, 1024]⟩
abbrev S128x10240 : Shape := ⟨2, ![128, 10240]⟩
abbrev S128x1 : Shape := ⟨2, ![128, 1]⟩
abbrev S1024x128 : Shape := ⟨2, ![1024, 128]⟩
abbrev S8192x128 : Shape := ⟨2, ![8192, 128]⟩
abbrev S1x128 : Shape := ⟨2, ![1, 128]⟩
abbrev S128x64 : Shape := ⟨2, ![128, 64]⟩
abbrev S8192x64 : Shape := ⟨2, ![8192, 64]⟩
abbrev S1x64 : Shape := ⟨2, ![1, 64]⟩

abbrev nBuf : Space → Nat
  | .hbm => 150
  | .vmem => 8
  | .smem => 0
  | _ => 0

abbrev hbmTy0_0 (i : Nat) : BufTy := match i % 128 with
  | 0 => ⟨S8192x10240, .f32⟩
  | 1 => ⟨S1024x10240, .f32⟩
  | 2 => ⟨S1024x1024, .f32⟩
  | 3 => ⟨S1024x1024, .f32⟩
  | 4 => ⟨S128x1024, .f32⟩
  | 5 => ⟨S128, .f32⟩
  | 6 => ⟨S64x128, .f32⟩
  | 7 => ⟨S64, .f32⟩
  | 8 => ⟨S_, .f32⟩
  | 9 => ⟨S8192x10240, .f32⟩
  | 10 => ⟨S8192x10240, .f32⟩
  | 11 => ⟨S_, .f32⟩
  | 12 => ⟨S8192x10240, .f32⟩
  | 13 => ⟨S8192x10240, .f32⟩
  | 14 => ⟨S_, .f32⟩
  | 15 => ⟨S8192x10240, .f32⟩
  | 16 => ⟨S8192x10240, .f32⟩
  | 17 => ⟨S8192x10240, .f32⟩
  | 18 => ⟨S8192x10240, .i32⟩
  | 19 => ⟨S_, .i32⟩
  | 20 => ⟨S_, .i32⟩
  | 21 => ⟨S_, .i32⟩
  | 22 => ⟨S8192x10240, .i32⟩
  | 23 => ⟨S8192x10240, .i32⟩
  | 24 => ⟨S_, .i32⟩
  | 25 => ⟨S8192x10240, .i32⟩
  | 26 => ⟨S8192x10240, .i32⟩
  | 27 => ⟨S_, .f32⟩
  | 28 => ⟨S8192x10240, .f32⟩
  | 29 => ⟨S8192x10240, .i1⟩
  | 30 => ⟨S_, .f32⟩
  | 31 => ⟨S8192x10240, .f32⟩
  | 32 => ⟨S8192x10240, .i1⟩
  | 33 => ⟨S8192x10240, .i1⟩
  | 34 => ⟨S8192x10240, .f32⟩
  | 35 => ⟨S8192, .i32⟩
  | 36 => ⟨S8192x1, .i32⟩
  | 37 => ⟨S8192x10240, .i32⟩
  | 38 => ⟨S_, .f32⟩
  | 39 => ⟨S8192x100, .f32⟩
  | 40 => ⟨S_, .i32⟩
  | 41 => ⟨S8192x10240, .i32⟩
  | 42 => ⟨S8192x10240, .i1⟩
  | 43 => ⟨S_, .i32⟩
  | 44 => ⟨S8192x10240, .i32⟩
  | 45 => ⟨S8192x10240, .i32⟩
  | 46 => ⟨S8192x10240, .i32⟩
  | 47 => ⟨S_, .i32⟩
  | 48 => ⟨S8192x10240, .i32⟩
  | 49 => ⟨S8192x10240, .i1⟩
  | 50 => ⟨S_, .i32⟩
  | 51 => ⟨S8192x10240, .i32⟩
  | 52 => ⟨S8192x10240, .i32⟩
  | 53 => ⟨S8192x10240, .i32⟩
  | 54 => ⟨S8192x10240x1, .i32⟩
  | 55 => ⟨S8192x10240x1, .i32⟩
  | 56 => ⟨S8192x10240x2, .i32⟩
  | 57 => ⟨S8192x100, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S8192x100, .f32⟩
  | 65 => ⟨S8192x100, .f32⟩
  | 66 => ⟨S_, .f32⟩
  | 67 => ⟨S8192x100, .f32⟩
  | 68 => ⟨S8192x100, .f32⟩
  | 69 => ⟨S8192x100, .f32⟩
  | 70 => ⟨S8192x100, .f32⟩
  | 71 => ⟨S_, .f32⟩
  | 72 => ⟨S8192, .f32⟩
  | 73 => ⟨S8192, .f32⟩
  | 74 => ⟨S_, .f32⟩
  | 75 => ⟨S8192, .f32⟩
  | 76 => ⟨S8192, .i1⟩
  | 77 => ⟨S8192, .f32⟩
  | 78 => ⟨S8192x1, .f32⟩
  | 79 => ⟨S10240x1024, .f32⟩
  | 80 => ⟨S10240x1024, .bf16⟩
  | 81 => ⟨S1024x1024, .bf16⟩
  | 82 => ⟨S8192x1024, .f32⟩
  | 83 => ⟨S1024x1024, .f32⟩
  | 84 => ⟨S1024x1024, .f32⟩
  | 85 => ⟨S_, .f32⟩
  | 86 => ⟨S_, .f32⟩
  | 87 => ⟨S1024x128, .f32⟩
  | 88 => ⟨S8192x128, .f32⟩
  | 89 => ⟨S1x128, .f32⟩
  | 90 => ⟨S8192x128, .f32⟩
  | 91 => ⟨S8192x128, .f32⟩
  | 92 => ⟨S_, .f32⟩
  | 93 => ⟨S8192x128, .f32⟩
  | 94 => ⟨S8192x128, .f32⟩
  | 95 => ⟨S_, .f32⟩
  | 96 => ⟨S8192x128, .f32⟩
  | 97 => ⟨S8192x128, .i1⟩
  | 98 => ⟨S_, .f32⟩
  | 99 => ⟨S8192x128, .f32⟩
  | 100 => ⟨S128x64, .f32⟩
  | 101 => ⟨S8192x64, .f32⟩
  | 102 => ⟨S1x64, .f32⟩
  | 103 => ⟨S8192x64, .f32⟩
  | 104 => ⟨S8192x64, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S8192x64, .f32⟩
  | 113 => ⟨S8192x128, .f32⟩
  | 114 => ⟨S_, .f32⟩
  | 115 => ⟨S8192x128, .f32⟩
  | 116 => ⟨S8192x128, .f32⟩
  | 117 => ⟨S8192x1024, .f32⟩
  | 118 => ⟨S8192x1024, .f32⟩
  | 119 => ⟨S_, .f32⟩
  | 120 => ⟨S8192x1024, .f32⟩
  | 121 => ⟨S8192x1024, .f32⟩
  | 122 => ⟨S8192x1024, .f32⟩
  | 123 => ⟨S1024x128, .f32⟩
  | 124 => ⟨S8192x128, .f32⟩
  | 125 => ⟨S1x128, .f32⟩
  | 126 => ⟨S8192x128, .f32⟩
  | 127 => ⟨S8192x128, .f32⟩
  | _ => ⟨S8192x10240, .f32⟩

abbrev hbmTy0_1 (i : Nat) : BufTy := match i % 128 with
  | 0 => ⟨S_, .f32⟩
  | 1 => ⟨S8192x128, .f32⟩
  | 2 => ⟨S8192x128, .f32⟩
  | 3 => ⟨S128x64, .f32⟩
  | 4 => ⟨S8192x64, .f32⟩
  | 5 => ⟨S1x64, .f32⟩
  | 6 => ⟨S8192x64, .f32⟩
  | 7 => ⟨S8192x64, .f32⟩
  | 8 => ⟨S_, .f32⟩
  | 9 => ⟨S8192, .f32⟩
  | 10 => ⟨S_, .f32⟩
  | 11 => ⟨S8192, .f32⟩
  | 12 => ⟨S8192, .f32⟩
  | 13 => ⟨S8192x1, .f32⟩
  | 14 => ⟨S8192x64, .f32⟩
  | 15 => ⟨S8192x64, .f32⟩
  | 16 => ⟨S8192x64, .f32⟩
  | 17 => ⟨S_, .f32⟩
  | 18 => ⟨S8192, .f32⟩
  | 19 => ⟨S8192x1, .f32⟩
  | 20 => ⟨S8192x64, .f32⟩
  | 21 => ⟨S8192x64, .f32⟩
  | _ => ⟨S8192x10240, .f32⟩

abbrev hbmTy (i : Nat) : BufTy := match i / 128 with
  | 0 => hbmTy0_0 i
  | 1 => hbmTy0_1 i
  | _ => ⟨S8192x10240, .f32⟩

abbrev bufTy : (tb : Table) → Fin (tcTables nBuf tb) → BufTy
  | .hbm, ⟨i, _⟩ => hbmTy i
  | .local _ .vmem, ⟨0, _⟩ => ⟨S128x10240, .f32⟩
  | .local _ .vmem, ⟨1, _⟩ => ⟨S128x10240, .f32⟩
  | .local _ .vmem, ⟨2, _⟩ => ⟨S128x1, .f32⟩
  | .local _ .vmem, ⟨3, _⟩ => ⟨S128x1, .f32⟩
  | .local _ .vmem, ⟨4, _⟩ => ⟨S10240x1024, .bf16⟩
  | .local _ .vmem, ⟨5, _⟩ => ⟨S1024x1024, .bf16⟩
  | .local _ .vmem, ⟨6, _⟩ => ⟨S128x1024, .f32⟩
  | .local _ .vmem, ⟨7, _⟩ => ⟨S128x1024, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_cst_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_c_7 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_c_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_12 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_13 : Ref sig .tc := ⟨.hbm, 71, rfl⟩
abbrev main_v43 : Ref sig .tc := ⟨.hbm, 72, rfl⟩
abbrev main_v44 : Ref sig .tc := ⟨.hbm, 73, rfl⟩
abbrev main_cst_14 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_15 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call1_cst : Ref sig .tc := ⟨.hbm, 92, rfl⟩
abbrev main_call1_v0 : Ref sig .tc := ⟨.hbm, 93, rfl⟩
abbrev main_v61 : Ref sig .tc := ⟨.hbm, 94, rfl⟩
abbrev main_cst_16 : Ref sig .tc := ⟨.hbm, 95, rfl⟩
abbrev main_v62 : Ref sig .tc := ⟨.hbm, 96, rfl⟩
abbrev main_v63 : Ref sig .tc := ⟨.hbm, 97, rfl⟩
abbrev main_cst_17 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_18 : Ref sig .tc := ⟨.hbm, 105, rfl⟩
abbrev main_v70 : Ref sig .tc := ⟨.hbm, 106, rfl⟩
abbrev main_cst_19 : Ref sig .tc := ⟨.hbm, 107, rfl⟩
abbrev main_v71 : Ref sig .tc := ⟨.hbm, 108, rfl⟩
abbrev main_cst_20 : Ref sig .tc := ⟨.hbm, 109, rfl⟩
abbrev main_cst_21 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_22 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_23 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_call2_cst : Ref sig .tc := ⟨.hbm, 128, rfl⟩
abbrev main_call2_v0 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_24 : Ref sig .tc := ⟨.hbm, 136, rfl⟩
abbrev main_v93 : Ref sig .tc := ⟨.hbm, 137, rfl⟩
abbrev main_cst_25 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_26 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x10240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10240x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S8192x10240 : S_.BroadcastsInDim S8192x10240 (![] : Fin 0 → Fin S8192x10240.rank)
  bcast_S8192_S8192x1_0 : S8192.BroadcastsInDim S8192x1 (![0] : Fin 1 → Fin S8192x1.rank)
  bcast_S8192x1_S8192x10240_0_1 : S8192x1.BroadcastsInDim S8192x10240 (![0, 1] : Fin 2 → Fin S8192x10240.rank)
  bcast_S_S8192x100 : S_.BroadcastsInDim S8192x100 (![] : Fin 0 → Fin S8192x100.rank)
  bcast_S8192x10240_S8192x10240x1_0_1 : S8192x10240.BroadcastsInDim S8192x10240x1 (![0, 1] : Fin 2 → Fin S8192x10240x1.rank)
  concatenates_S8192x10240x1_S8192x10240x1_S8192x10240x2_d2 : Shape.Concatenates [S8192x10240x1, S8192x10240x1] S8192x10240x2 2
  reducesTo_S8192x100_S8192_d1 : S8192x100.ReducesTo [1] S8192
  h_S_ : 0 < S_.numel
  bcast_S_S8192x1 : S_.BroadcastsInDim S8192x1 (![] : Fin 0 → Fin S8192x1.rank)
  bcast_S8192x1_S8192x100_0_1 : S8192x1.BroadcastsInDim S8192x100 (![0, 1] : Fin 2 → Fin S8192x100.rank)
  bcast_S_S8192 : S_.BroadcastsInDim S8192 (![] : Fin 0 → Fin S8192.rank)
  transposes_S1024x10240_S10240x1024_1_0 : S1024x10240.Transposes [1, 0] S10240x1024
  bitsLt_bf16_f32 : FTy.bits .bf16 < FTy.bits .f32
  inb_S128x10240_S128x10240_0_0 : ∀ a, (![0, 0] : Fin 2 → Nat) a + S128x10240.size a ≤ S128x10240.size a
  h_S128x10240 : 0 < S128x10240.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x10240 : S128x1.Broadcasts S128x10240
  inb_S10240x1024_S10240x1024_0_0 : ∀ a, (![0, 0] : Fin 2 → Nat) a + S10240x1024.size a ≤ S10240x1024.size a
  h_S10240x1024 : 0 < S10240x1024.numel
  shapeCasts_S10240x1024_S10240x1024 : S10240x1024.ShapeCasts S10240x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S128x1024_S128x1024_0_0 : ∀ a, (![0, 0] : Fin 2 → Nat) a + S128x1024.size a ≤ S128x1024.size a
  h_S128x1024 : 0 < S128x1024.numel
  reducesTo_S1024x1024_S_d0_1 : S1024x1024.ReducesTo [0, 1] S_
  transposes_S128x1024_S1024x128_1_0 : S128x1024.Transposes [1, 0] S1024x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S_d0_1 : S8192x64.ReducesTo [0, 1] S_
  bcast_S_S8192x64 : S_.BroadcastsInDim S8192x64 (![] : Fin 0 → Fin S8192x64.rank)
  bcast_S_S8192x1024 : S_.BroadcastsInDim S8192x1024 (![] : Fin 0 → Fin S8192x1024.rank)
  reducesTo_S8192x64_S8192_d1 : S8192x64.ReducesTo [1] S8192
  bcast_S8192x1_S8192x64_0_1 : S8192x1.BroadcastsInDim S8192x64 (![0, 1] : Fin 2 → Fin S8192x64.rank)
  scatter_S8192x100_S8192x10240x2_S8192x10240_n_01_01_2_wf : ScatterDims.WF S8192x100 S8192x10240x2 S8192x10240 [] [0, 1] [0, 1] 2
  dot_S128x10240_S10240x1024_S128x1024_1_0_0_1_n_n_wf : DotDims.WF S128x10240 S10240x1024 S128x1024 [1] [0] [0] [1] [] []
  dot_S128x1024_S1024x1024_S128x1024_1_0_0_1_n_n_wf : DotDims.WF S128x1024 S1024x1024 S128x1024 [1] [0] [0] [1] [] []
  dot_S8192x1024_S1024x128_S8192x128_1_0_0_1_n_n_wf : DotDims.WF S8192x1024 S1024x128 S8192x128 [1] [0] [0] [1] [] []
  dot_S8192x128_S128x64_S8192x64_1_0_0_1_n_n_wf : DotDims.WF S8192x128 S128x64 S8192x64 [1] [0] [0] [1] [] []
  dot_S8192x64_S128x64_S8192x128_1_1_0_0_n_n_wf : DotDims.WF S8192x64 S128x64 S8192x128 [1] [1] [0] [0] [] []
  dot_S8192x128_S1024x128_S8192x1024_1_1_0_0_n_n_wf : DotDims.WF S8192x128 S1024x128 S8192x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10240.size a ≤ S8192x10240.size a
  hwx0_0 : ∀ i : grid0.Coords, EltTy.bits .f32 = 32 ∨ (Rect.block (s := S8192x10240) S128x10240.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .f32 = 32 ∨ (Rect.block (s := S8192x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10240x1024.size a ≤ S10240x1024.size a
  hwx0_2 : ∀ i : grid0.Coords, EltTy.bits .bf16 = 32 ∨ (Rect.block (s := S10240x1024) S10240x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S8192x1024.size a
  hwx0_4 : ∀ i : grid0.Coords, EltTy.bits .f32 = 32 ∨ (Rect.block (s := S8192x1024) S128x1024.size (cc0_transform_4 i) (hinb0_4 i)).WholeWords (EltTy.packing .f32)

variable [Facts₀]

def scatter_S8192x100_S8192x10240x2_S8192x10240_n_01_01_2 : ScatterDims S8192x100 S8192x10240x2 S8192x10240 where
  updateWindowDims := []
  insertedWindowDims := [0, 1]
  scatterDimsToOperandDims := [0, 1]
  indexVectorDim := 2
  wf := scatter_S8192x100_S8192x10240x2_S8192x10240_n_01_01_2_wf
def dot_S128x10240_S10240x1024_S128x1024_1_0_0_1_n_n : DotDims S128x10240 S10240x1024 S128x1024 where
  lhsContracting := [1]
  rhsContracting := [0]
  lhsNonContracting := [0]
  rhsNonContracting := [1]
  lhsBatch := []
  rhsBatch := []
  wf := dot_S128x10240_S10240x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S8192x1024_S1024x128_S8192x128_1_0_0_1_n_n : DotDims S8192x1024 S1024x128 S8192x128 where
  lhsContracting := [1]
  rhsContracting := [0]
  lhsNonContracting := [0]
  rhsNonContracting := [1]
  lhsBatch := []
  rhsBatch := []
  wf := dot_S8192x1024_S1024x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S128x64_S8192x128_1_1_0_0_n_n : DotDims S8192x64 S128x64 S8192x128 where
  lhsContracting := [1]
  rhsContracting := [1]
  lhsNonContracting := [0]
  rhsNonContracting := [0]
  lhsBatch := []
  rhsBatch := []
  wf := dot_S8192x64_S128x64_S8192x128_1_1_0_0_n_n_wf
def dot_S8192x128_S1024x128_S8192x1024_1_1_0_0_n_n : DotDims S8192x128 S1024x128 S8192x1024 where
  lhsContracting := [1]
  rhsContracting := [1]
  lhsNonContracting := [0]
  rhsNonContracting := [0]
  lhsBatch := []
  rhsBatch := []
  wf := dot_S8192x128_S1024x128_S8192x1024_1_1_0_0_n_n_wf

abbrev win0_0 : Pipeline.Window sig grid0 :=
  Pipeline.Window.ofSpec (Memref.whole main_arg0) S128x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S10240x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v52) S128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x10240 : Shape := ⟨2, ![8192, 10240]⟩
abbrev S1024x10240 : Shape := ⟨2, ![1024, 10240]⟩
abbrev S1024x1024 : Shape := ⟨2, ![1024, 1024]⟩
abbrev S128x1024 : Shape := ⟨2, ![128, 1024]⟩
abbrev S128 : Shape := ⟨1, ![128]⟩
abbrev S64x128 : Shape := ⟨2, ![64, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S8192x100 : Shape := ⟨2, ![8192, 100]⟩
abbrev S8192x10240x1 : Shape := ⟨3, ![8192, 10240, 1]⟩
abbrev S8192x10240x2 : Shape := ⟨3, ![8192, 10240, 2]⟩
abbrev S10240x1024 : Shape := ⟨2, ![10240, 1024]⟩
abbrev S8192x1024 : Shape := ⟨2, ![8192, 1024]⟩
abbrev S1024x128 : Shape := ⟨2, ![1024, 128]⟩
abbrev S8192x128 : Shape := ⟨2, ![8192, 128]⟩
abbrev S1x128 : Shape := ⟨2, ![1, 128]⟩
abbrev S128x64 : Shape := ⟨2, ![128, 64]⟩
abbrev S8192x64 : Shape := ⟨2, ![8192, 64]⟩
abbrev S1x64 : Shape := ⟨2, ![1, 64]⟩

abbrev nBuf : Space → Nat
  | .hbm => 151
  | .vmem => 0
  | .smem => 0
  | _ => 0

abbrev hbmTy0_0 (i : Nat) : BufTy := match i % 128 with
  | 0 => ⟨S8192x10240, .f32⟩
  | 1 => ⟨S1024x10240, .f32⟩
  | 2 => ⟨S1024x1024, .f32⟩
  | 3 => ⟨S1024x1024, .f32⟩
  | 4 => ⟨S128x1024, .f32⟩
  | 5 => ⟨S128, .f32⟩
  | 6 => ⟨S64x128, .f32⟩
  | 7 => ⟨S64, .f32⟩
  | 8 => ⟨S_, .f32⟩
  | 9 => ⟨S8192x10240, .f32⟩
  | 10 => ⟨S8192x10240, .f32⟩
  | 11 => ⟨S_, .f32⟩
  | 12 => ⟨S8192x10240, .f32⟩
  | 13 => ⟨S8192x10240, .f32⟩
  | 14 => ⟨S_, .f32⟩
  | 15 => ⟨S8192x10240, .f32⟩
  | 16 => ⟨S8192x10240, .f32⟩
  | 17 => ⟨S8192x10240, .f32⟩
  | 18 => ⟨S8192x10240, .i32⟩
  | 19 => ⟨S_, .i32⟩
  | 20 => ⟨S_, .i32⟩
  | 21 => ⟨S_, .i32⟩
  | 22 => ⟨S8192x10240, .i32⟩
  | 23 => ⟨S8192x10240, .i32⟩
  | 24 => ⟨S_, .i32⟩
  | 25 => ⟨S8192x10240, .i32⟩
  | 26 => ⟨S8192x10240, .i32⟩
  | 27 => ⟨S_, .f32⟩
  | 28 => ⟨S8192x10240, .f32⟩
  | 29 => ⟨S8192x10240, .i1⟩
  | 30 => ⟨S_, .f32⟩
  | 31 => ⟨S8192x10240, .f32⟩
  | 32 => ⟨S8192x10240, .i1⟩
  | 33 => ⟨S8192x10240, .i1⟩
  | 34 => ⟨S8192x10240, .f32⟩
  | 35 => ⟨S8192, .i32⟩
  | 36 => ⟨S8192x1, .i32⟩
  | 37 => ⟨S8192x10240, .i32⟩
  | 38 => ⟨S_, .f32⟩
  | 39 => ⟨S8192x100, .f32⟩
  | 40 => ⟨S_, .i32⟩
  | 41 => ⟨S8192x10240, .i32⟩
  | 42 => ⟨S8192x10240, .i1⟩
  | 43 => ⟨S_, .i32⟩
  | 44 => ⟨S8192x10240, .i32⟩
  | 45 => ⟨S8192x10240, .i32⟩
  | 46 => ⟨S8192x10240, .i32⟩
  | 47 => ⟨S_, .i32⟩
  | 48 => ⟨S8192x10240, .i32⟩
  | 49 => ⟨S8192x10240, .i1⟩
  | 50 => ⟨S_, .i32⟩
  | 51 => ⟨S8192x10240, .i32⟩
  | 52 => ⟨S8192x10240, .i32⟩
  | 53 => ⟨S8192x10240, .i32⟩
  | 54 => ⟨S8192x10240x1, .i32⟩
  | 55 => ⟨S8192x10240x1, .i32⟩
  | 56 => ⟨S8192x10240x2, .i32⟩
  | 57 => ⟨S8192x100, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S8192x100, .f32⟩
  | 65 => ⟨S8192x100, .f32⟩
  | 66 => ⟨S_, .f32⟩
  | 67 => ⟨S8192x100, .f32⟩
  | 68 => ⟨S8192x100, .f32⟩
  | 69 => ⟨S8192x100, .f32⟩
  | 70 => ⟨S8192x100, .f32⟩
  | 71 => ⟨S_, .f32⟩
  | 72 => ⟨S8192, .f32⟩
  | 73 => ⟨S8192, .f32⟩
  | 74 => ⟨S10240x1024, .f32⟩
  | 75 => ⟨S8192x1024, .f32⟩
  | 76 => ⟨S_, .f32⟩
  | 77 => ⟨S8192, .f32⟩
  | 78 => ⟨S8192, .i1⟩
  | 79 => ⟨S8192x1, .i1⟩
  | 80 => ⟨S8192x1, .f32⟩
  | 81 => ⟨S8192x1024, .f32⟩
  | 82 => ⟨S8192x1024, .f32⟩
  | 83 => ⟨S8192x1024, .f32⟩
  | 84 => ⟨S1024x1024, .f32⟩
  | 85 => ⟨S1024x1024, .f32⟩
  | 86 => ⟨S_, .f32⟩
  | 87 => ⟨S_, .f32⟩
  | 88 => ⟨S1024x128, .f32⟩
  | 89 => ⟨S8192x128, .f32⟩
  | 90 => ⟨S1x128, .f32⟩
  | 91 => ⟨S8192x128, .f32⟩
  | 92 => ⟨S8192x128, .f32⟩
  | 93 => ⟨S_, .f32⟩
  | 94 => ⟨S8192x128, .f32⟩
  | 95 => ⟨S8192x128, .f32⟩
  | 96 => ⟨S_, .f32⟩
  | 97 => ⟨S8192x128, .f32⟩
  | 98 => ⟨S8192x128, .i1⟩
  | 99 => ⟨S_, .f32⟩
  | 100 => ⟨S8192x128, .f32⟩
  | 101 => ⟨S128x64, .f32⟩
  | 102 => ⟨S8192x64, .f32⟩
  | 103 => ⟨S1x64, .f32⟩
  | 104 => ⟨S8192x64, .f32⟩
  | 105 => ⟨S8192x64, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S8192x64, .f32⟩
  | 114 => ⟨S8192x128, .f32⟩
  | 115 => ⟨S_, .f32⟩
  | 116 => ⟨S8192x128, .f32⟩
  | 117 => ⟨S8192x128, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S8192x1024, .f32⟩
  | 124 => ⟨S1024x128, .f32⟩
  | 125 => ⟨S8192x128, .f32⟩
  | 126 => ⟨S1x128, .f32⟩
  | 127 => ⟨S8192x128, .f32⟩
  | _ => ⟨S8192x10240, .f32⟩

abbrev hbmTy0_1 (i : Nat) : BufTy := match i % 128 with
  | 0 => ⟨S8192x128, .f32⟩
  | 1 => ⟨S_, .f32⟩
  | 2 => ⟨S8192x128, .f32⟩
  | 3 => ⟨S8192x128, .f32⟩
  | 4 => ⟨S128x64, .f32⟩
  | 5 => ⟨S8192x64, .f32⟩
  | 6 => ⟨S1x64, .f32⟩
  | 7 => ⟨S8192x64, .f32⟩
  | 8 => ⟨S8192x64, .f32⟩
  | 9 => ⟨S_, .f32⟩
  | 10 => ⟨S8192, .f32⟩
  | 11 => ⟨S_, .f32⟩
  | 12 => ⟨S8192, .f32⟩
  | 13 => ⟨S8192, .f32⟩
  | 14 => ⟨S8192x1, .f32⟩
  | 15 => ⟨S8192x64, .f32⟩
  | 16 => ⟨S8192x64, .f32⟩
  | 17 => ⟨S8192x64, .f32⟩
  | 18 => ⟨S_, .f32⟩
  | 19 => ⟨S8192, .f32⟩
  | 20 => ⟨S8192x1, .f32⟩
  | 21 => ⟨S8192x64, .f32⟩
  | 22 => ⟨S8192x64, .f32⟩
  | _ => ⟨S8192x10240, .f32⟩

abbrev hbmTy (i : Nat) : BufTy := match i / 128 with
  | 0 => hbmTy0_0 i
  | 1 => hbmTy0_1 i
  | _ => ⟨S8192x10240, .f32⟩

abbrev bufTy : (tb : Table) → Fin (tcTables nBuf tb) → BufTy
  | .hbm, ⟨i, _⟩ => hbmTy i
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_cst_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_c_7 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_c_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_12 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_13 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_14 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_15 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call1_cst : Ref sig .tc := ⟨.hbm, 93, rfl⟩
abbrev main_call1_v0 : Ref sig .tc := ⟨.hbm, 94, rfl⟩
abbrev main_v62 : Ref sig .tc := ⟨.hbm, 95, rfl⟩
abbrev main_cst_16 : Ref sig .tc := ⟨.hbm, 96, rfl⟩
abbrev main_v63 : Ref sig .tc := ⟨.hbm, 97, rfl⟩
abbrev main_v64 : Ref sig .tc := ⟨.hbm, 98, rfl⟩
abbrev main_cst_17 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_18 : Ref sig .tc := ⟨.hbm, 106, rfl⟩
abbrev main_v71 : Ref sig .tc := ⟨.hbm, 107, rfl⟩
abbrev main_cst_19 : Ref sig .tc := ⟨.hbm, 108, rfl⟩
abbrev main_v72 : Ref sig .tc := ⟨.hbm, 109, rfl⟩
abbrev main_cst_20 : Ref sig .tc := ⟨.hbm, 110, rfl⟩
abbrev main_cst_21 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_22 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_23 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call2_cst : Ref sig .tc := ⟨.hbm, 129, rfl⟩
abbrev main_call2_v0 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_24 : Ref sig .tc := ⟨.hbm, 137, rfl⟩
abbrev main_v94 : Ref sig .tc := ⟨.hbm, 138, rfl⟩
abbrev main_cst_25 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_26 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩

abbrev nD : Nat := 1
abbrev τ : Topo := Topo.v7x

variable {F : FTy → Type} [FloatOps F]

class Facts₀ : Prop where
  bcast_S_S8192x10240 : S_.BroadcastsInDim S8192x10240 (![] : Fin 0 → Fin S8192x10240.rank)
  bcast_S8192_S8192x1_0 : S8192.BroadcastsInDim S8192x1 (![0] : Fin 1 → Fin S8192x1.rank)
  bcast_S8192x1_S8192x10240_0_1 : S8192x1.BroadcastsInDim S8192x10240 (![0, 1] : Fin 2 → Fin S8192x10240.rank)
  bcast_S_S8192x100 : S_.BroadcastsInDim S8192x100 (![] : Fin 0 → Fin S8192x100.rank)
  bcast_S8192x10240_S8192x10240x1_0_1 : S8192x10240.BroadcastsInDim S8192x10240x1 (![0, 1] : Fin 2 → Fin S8192x10240x1.rank)
  concatenates_S8192x10240x1_S8192x10240x1_S8192x10240x2_d2 : Shape.Concatenates [S8192x10240x1, S8192x10240x1] S8192x10240x2 2
  reducesTo_S8192x100_S8192_d1 : S8192x100.ReducesTo [1] S8192
  h_S_ : 0 < S_.numel
  bcast_S_S8192x1 : S_.BroadcastsInDim S8192x1 (![] : Fin 0 → Fin S8192x1.rank)
  bcast_S8192x1_S8192x100_0_1 : S8192x1.BroadcastsInDim S8192x100 (![0, 1] : Fin 2 → Fin S8192x100.rank)
  transposes_S1024x10240_S10240x1024_1_0 : S1024x10240.Transposes [1, 0] S10240x1024
  bcast_S_S8192 : S_.BroadcastsInDim S8192 (![] : Fin 0 → Fin S8192.rank)
  bcast_S8192x1_S8192x1024_0_1 : S8192x1.BroadcastsInDim S8192x1024 (![0, 1] : Fin 2 → Fin S8192x1024.rank)
  reducesTo_S1024x1024_S_d0_1 : S1024x1024.ReducesTo [0, 1] S_
  transposes_S128x1024_S1024x128_1_0 : S128x1024.Transposes [1, 0] S1024x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S_d0_1 : S8192x64.ReducesTo [0, 1] S_
  bcast_S_S8192x64 : S_.BroadcastsInDim S8192x64 (![] : Fin 0 → Fin S8192x64.rank)
  bcast_S_S8192x1024 : S_.BroadcastsInDim S8192x1024 (![] : Fin 0 → Fin S8192x1024.rank)
  reducesTo_S8192x64_S8192_d1 : S8192x64.ReducesTo [1] S8192
  bcast_S8192x1_S8192x64_0_1 : S8192x1.BroadcastsInDim S8192x64 (![0, 1] : Fin 2 → Fin S8192x64.rank)
  scatter_S8192x100_S8192x10240x2_S8192x10240_n_01_01_2_wf : ScatterDims.WF S8192x100 S8192x10240x2 S8192x10240 [] [0, 1] [0, 1] 2
  dot_S8192x10240_S10240x1024_S8192x1024_1_0_0_1_n_n_wf : DotDims.WF S8192x10240 S10240x1024 S8192x1024 [1] [0] [0] [1] [] []
  dot_S8192x1024_S1024x1024_S8192x1024_1_0_0_1_n_n_wf : DotDims.WF S8192x1024 S1024x1024 S8192x1024 [1] [0] [0] [1] [] []
  dot_S8192x1024_S1024x128_S8192x128_1_0_0_1_n_n_wf : DotDims.WF S8192x1024 S1024x128 S8192x128 [1] [0] [0] [1] [] []
  dot_S8192x128_S128x64_S8192x64_1_0_0_1_n_n_wf : DotDims.WF S8192x128 S128x64 S8192x64 [1] [0] [0] [1] [] []
  dot_S8192x64_S128x64_S8192x128_1_1_0_0_n_n_wf : DotDims.WF S8192x64 S128x64 S8192x128 [1] [1] [0] [0] [] []
  dot_S8192x128_S1024x128_S8192x1024_1_1_0_0_n_n_wf : DotDims.WF S8192x128 S1024x128 S8192x1024 [1] [1] [0] [0] [] []

variable [Facts₀]

def scatter_S8192x100_S8192x10240x2_S8192x10240_n_01_01_2 : ScatterDims S8192x100 S8192x10240x2 S8192x10240 where
  updateWindowDims := []
  insertedWindowDims := [0, 1]
  scatterDimsToOperandDims := [0, 1]
  indexVectorDim := 2
  wf := scatter_S8192x100_S8192x10240x2_S8192x10240_n_01_01_2_wf
def dot_S8192x10240_S10240x1024_S8192x1024_1_0_0_1_n_n : DotDims S8192x10240 S10240x1024 S8192x1024 where
  lhsContracting := [1]
  rhsContracting := [0]
  lhsNonContracting := [0]
  rhsNonContracting := [1]
  lhsBatch := []
  rhsBatch := []
  wf := dot_S8192x10240_S10240x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x128_S8192x128_1_0_0_1_n_n : DotDims S8192x1024 S1024x128 S8192x128 where
  lhsContracting := [1]
  rhsContracting := [0]
  lhsNonContracting := [0]
  rhsNonContracting := [1]
  lhsBatch := []
  rhsBatch := []
  wf := dot_S8192x1024_S1024x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S128x64_S8192x128_1_1_0_0_n_n : DotDims S8192x64 S128x64 S8192x128 where
  lhsContracting := [1]
  rhsContracting := [1]
  lhsNonContracting := [0]
  rhsNonContracting := [0]
  lhsBatch := []
  rhsBatch := []
  wf := dot_S8192x64_S128x64_S8192x128_1_1_0_0_n_n_wf
def dot_S8192x128_S1024x128_S8192x1024_1_1_0_0_n_n : DotDims S8192x128 S1024x128 S8192x1024 where
  lhsContracting := [1]
  rhsContracting := [1]
  lhsNonContracting := [0]
  rhsNonContracting := [0]
  lhsBatch := []
  rhsBatch := []
  wf := dot_S8192x128_S1024x128_S8192x1024_1_1_0_0_n_n_wf

class Facts : Prop extends Facts₀ where

variable [Facts]
-- ==== Proof.HostBits.lean ====
/-
  The host side of the frame of the fused sensing-and-adjacency program: @main is three stretches of host operations
  (the histogram-entropy gate, the transposed and rounded weights), ONE pipelined region, and five stretches of host
  operations after it (the semantic loss, the policy network, its sign-gradient perturbation, the softmax).
  Here: the buffers' contents when the region is entered (`V`), that @main is those stretches around the region,
  that the later stretches touch only unscoped buffers, allocate nothing and write none of the region's five arrays,
  that no host operation writes an argument array, each window's block at a grid point, and the frame claim's post
  read off a run of the region's frame.
-/
import proofs.«151075_j88347477278870_1_alg».proof.Proof.Gen.Kernel.Launch
import proofs.«151075_j88347477278870_1_alg».proof.Proof.Gen.Kernel.Skeleton
import proofs.«151075_j88347477278870_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the three stretches of host
    operations before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the host stretches before the region, the region, and the host stretches after it: it reduces to the
    region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0, hostOps0_1, hostOps0_2] [hostOps1, hostOps1_1, hostOps1_2, hostOps1_3, hostOps1_4]
    (by simp only [List.Forall]; exact ⟨hostOps0_sub, hostOps0_1_sub, hostOps0_2_sub⟩)
    (by simp only [List.Forall]; exact ⟨hostOps0_fresh, hostOps0_1_fresh, hostOps0_2_fresh⟩) main_chain

/-- The stretches after the region, as the list the frame run takes. -/
abbrev tailOpss : List (List (HloOp τ sig (Elt F))) := [hostOps1, hostOps1_1, hostOps1_2, hostOps1_3, hostOps1_4]

/-- Every later operation touches unscoped TensorCore buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOpss, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOpss : List (List (HloOp τ sig (Elt F)))), ∀ op ∈ ops, op.fresh = ∅ := by
  intro ops hops op hop
  simp only [tailOpss, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- The region's five arrays: the event stream, the gate column, the transposed sensing matrix, the adjacency
    matrix (both rounded), and the state it writes. -/
theorem arr_cases : ∀ w : Fin 5, Pipeline.arrRef spec0 w = main_arg0 ∨ Pipeline.arrRef spec0 w = main_v48
    ∨ Pipeline.arrRef spec0 w = main_v50 ∨ Pipeline.arrRef spec0 w = main_v51 ∨ Pipeline.arrRef spec0 w = main_v52 := by decide

set_option maxHeartbeats 2000000 in
/-- No operation of this stretch writes one of the region's arrays: each writes only its own result buffer. -/
theorem hostOps1_keeps (w : Fin 5) : (hostOps1 : List (HloOp τ sig (Elt F))).Forall fun op =>
    Proc.devRef .tc (Pipeline.arrRef spec0 w) ∉ op.writes := by
  rcases arr_cases w with h | h | h | h | h <;> rw [h] <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 2000000 in
/-- No operation of this stretch writes one of the region's arrays: each writes only its own result buffer. -/
theorem hostOps1_1_keeps (w : Fin 5) : (hostOps1_1 : List (HloOp τ sig (Elt F))).Forall fun op =>
    Proc.devRef .tc (Pipeline.arrRef spec0 w) ∉ op.writes := by
  rcases arr_cases w with h | h | h | h | h <;> rw [h] <;>
  · simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 2000000 in
/-- No operation of this stretch writes one of the region's arrays: each writes only its own result buffer. -/
theorem hostOps1_2_keeps (w : Fin 5) : (hostOps1_2 : List (HloOp τ sig (Elt F))).Forall fun op =>
    Proc.devRef .tc (Pipeline.arrRef spec0 w) ∉ op.writes := by
  rcases arr_cases w with h | h | h | h | h <;> rw [h] <;>
  · simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 2000000 in
/-- No operation of this stretch writes one of the region's arrays: each writes only its own result buffer. -/
theorem hostOps1_3_keeps (w : Fin 5) : (hostOps1_3 : List (HloOp τ sig (Elt F))).Forall fun op =>
    Proc.devRef .tc (Pipeline.arrRef spec0 w) ∉ op.writes := by
  rcases arr_cases w with h | h | h | h | h <;> rw [h] <;>
  · simp only [hostOps1_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 2000000 in
/-- No operation of this stretch writes one of the region's arrays: each writes only its own result buffer. -/
theorem hostOps1_4_keeps (w : Fin 5) : (hostOps1_4 : List (HloOp τ sig (Elt F))).Forall fun op =>
    Proc.devRef .tc (Pipeline.arrRef spec0 w) ∉ op.writes := by
  rcases arr_cases w with h | h | h | h | h <;> rw [h] <;>
  · simp only [hostOps1_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The later stretches write none of the region's arrays. -/
theorem sfx_keeps : ∀ ops ∈ (tailOpss : List (List (HloOp τ sig (Elt F)))), ∀ op ∈ ops,
    ∀ w, Proc.devRef .tc (Pipeline.arrRef spec0 w) ∉ op.writes := by
  intro ops hops op hop w
  simp only [tailOpss, List.mem_cons, List.mem_nil_iff, or_false] at hops
  rcases hops with rfl | rfl | rfl | rfl | rfl
  · exact (List.forall_iff_forall_mem.mp (hostOps1_keeps w)) op hop
  · exact (List.forall_iff_forall_mem.mp (hostOps1_1_keeps w)) op hop
  · exact (List.forall_iff_forall_mem.mp (hostOps1_2_keeps w)) op hop
  · exact (List.forall_iff_forall_mem.mp (hostOps1_3_keeps w)) op hop
  · exact (List.forall_iff_forall_mem.mp (hostOps1_4_keeps w)) op hop

/-! ## The argument arrays are written by no host operation -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation after the region writes `main_arg1`, and it is none of the region's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOpss c main_arg1 = m ((c : Thread nD τ).loc main_arg1) := by
  unfold Pipeline.afterTail₀
  rw [StableHlo.after_of_forall_not_mem (b := Proc.devRef .tc main_arg1) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`, and it is none of the region's arrays: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOpss c main_arg2 = m ((c : Thread nD τ).loc main_arg2) := by
  unfold Pipeline.afterTail₀
  rw [StableHlo.after_of_forall_not_mem (b := Proc.devRef .tc main_arg2) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`, and it is none of the region's arrays: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOpss c main_arg3 = m ((c : Thread nD τ).loc main_arg3) := by
  unfold Pipeline.afterTail₀
  rw [StableHlo.after_of_forall_not_mem (b := Proc.devRef .tc main_arg3) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`, and it is none of the region's arrays: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOpss c main_arg4 = m ((c : Thread nD τ).loc main_arg4) := by
  unfold Pipeline.afterTail₀
  rw [StableHlo.after_of_forall_not_mem (b := Proc.devRef .tc main_arg4) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`, and it is none of the region's arrays: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOpss c main_arg5 = m ((c : Thread nD τ).loc main_arg5) := by
  unfold Pipeline.afterTail₀
  rw [StableHlo.after_of_forall_not_mem (b := Proc.devRef .tc main_arg5) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`, and it is none of the region's arrays: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) tailOpss c main_arg6 = m ((c : Thread nD τ).loc main_arg6) := by
  unfold Pipeline.afterTail₀
  rw [StableHlo.after_of_forall_not_mem (b := Proc.devRef .tc main_arg6) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`, and it is none of the region's arrays: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) tailOpss c main_arg7 = m ((c : Thread nD τ).loc main_arg7) := by
  unfold Pipeline.afterTail₀
  rw [StableHlo.after_of_forall_not_mem (b := Proc.devRef .tc main_arg7) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's frame run -/

/-- The frame: for any proof data whose arrays are the region-entry contents, a run to the frame post — every array
    of the region at what the proof data give, every other unscoped buffer as the later stretches leave it — leaves
    the eight argument arrays as launched: the event stream is a staged input, never written back; the other seven
    are no array of the region and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c))⟩) h

end Cert.Kernel.Hand

end
-- ==== Proof.BodyBits.lean ====
/-
  The body of the fused sensing-and-adjacency kernel and the run of its region. At every grid point the body loads
  its four input blocks whole (a row block of the event stream, the matching rows of the gate column, the whole
  transposed sensing matrix, the whole adjacency matrix), reads its output block, and stores ONE value over the
  whole output block: the two matrix products of the masked rows. So each input buffer is left as found and the
  output buffer holds that value; the proof data say so at every point, and the region's frame run follows.
-/
import proofs.«151075_j88347477278870_1_alg».proof.Proof.HostBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store take a whole block -/

abbrev rEv : Rect S128x10240 := Rect.unit (s := S128x10240) ![0, 0] S128x10240.size inb_S128x10240_S128x10240_0_0
abbrev rKeep : Rect S128x1 := Rect.unit (s := S128x1) ![0, 0] S128x1.size inb_S128x1_S128x1_0_0
abbrev rSens : Rect S10240x1024 := Rect.unit (s := S10240x1024) ![0, 0] S10240x1024.size inb_S10240x1024_S10240x1024_0_0
abbrev rAdj : Rect S1024x1024 := Rect.unit (s := S1024x1024) ![0, 0] S1024x1024.size inb_S1024x1024_S1024x1024_0_0
abbrev rOut : Rect S128x1024 := Rect.unit (s := S128x1024) ![0, 0] S128x1024.size inb_S128x1024_S128x1024_0_0

/-! ## What the body leaves in the output window's buffer -/

/-- The output window's staging buffer after the body, from the four input blocks: its one store, over the whole
    block, of the body's arithmetic on the loaded blocks. -/
def outState (x0 : Vec F S128x10240 .f32) (x1 : Vec F S128x1 .f32) (x2 : Vec F S10240x1024 .bf16) (x3 : Vec F S1024x1024 .bf16) :
    Vec F S128x1024 .f32 :=
  View.canon [⟨rOut, k0_pay1 (View.ld x0 rEv) (View.ld x1 rKeep) (View.ld x2 rSens) (View.ld x3 rAdj)⟩]

/-- The one store covers the buffer. -/
theorem coverOut (p0 : Vec F S128x1024 .f32) (y : S128x1024.Idx) :
    ∃ pc ∈ ([⟨rOut, p0⟩] : List (View.Piece (Elt F) S128x1024 .f32)), y ∈ pc.1.set :=
  View.cover_of_tiled [⟨rOut, p0⟩] S128x1024.size (by rfl) y

/-! ## The body's triple -/

set_option maxHeartbeats 1000000 in
/-- The kernel body on whole staging memrefs, the inputs' at contents `x0 … x3` and the output's at anything, runs to
    the continuation holding the inputs' as they were and the output's at `outState` of the inputs'. -/
theorem sound_kernel (c : Dev nD) (E : Set ℕ) (i : grid0.Coords)
    (arg1 : Memref sig .tc .vmem S128x10240 .f32) (harg1 : arg1.IsWhole) (arg2 : Memref sig .tc .vmem S128x1 .f32) (harg2 : arg2.IsWhole)
    (arg3 : Memref sig .tc .vmem S10240x1024 .bf16) (harg3 : arg3.IsWhole) (arg4 : Memref sig .tc .vmem S1024x1024 .bf16) (harg4 : arg4.IsWhole)
    (arg5 : Memref sig .tc .vmem S128x1024 .f32) (harg5 : arg5.IsWhole)
    (x0 : Vec F S128x10240 .f32) (x1 : Vec F S128x1 .f32) (x2 : Vec F S10240x1024 .bf16) (x3 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outState x0 x1 x2 x3)) -∗ K ⟨⟩))
      ⊢ wp frame (wpE (defs₀ (F := F)) Variants.none c none) E (cc0__fused_sensing_adjacency_kernel i arg1 harg1 arg2 harg2 arg3 harg3 arg4 harg4 arg5 harg5) K := by
  simp only [cc0__fused_sensing_adjacency_kernel_eq_skeleton]; unfold cc0__fused_sensing_adjacency_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

/-! ## The region's proof data -/

/-- The proof data of the region on core `c`: the arrays as the region finds them; after the body at point `t`
    each input's buffer at its block and the output's at `outState` of the input blocks; the invariant is the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outState (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outState (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main on the
    TensorCores terminates, and every final state has every array of the region at what the proof data give and
    every other unscoped buffer as the stretches after the region leave it. -/
theorem run_main : θ_run defs (onTc (τ := τ) (main (F := F))) (s₀ m ρ)
    (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame claim's post at any instance of the float operations: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.HostIdeal.lean ====
/-
  The host side of the frame of the fused sensing-and-adjacency program: @main is three stretches of host operations
  (the histogram-entropy gate, the transposed and rounded weights), ONE pipelined region, and five stretches of host
  operations after it (the semantic loss, the policy network, its sign-gradient perturbation, the softmax).
  Here: the buffers' contents when the region is entered (`V`), that @main is those stretches around the region,
  that the later stretches touch only unscoped buffers, allocate nothing and write none of the region's five arrays,
  that no host operation writes an argument array, each window's block at a grid point, and the frame claim's post
  read off a run of the region's frame.
-/
import proofs.«151075_j88347477278870_1_alg».proof.Proof.Gen.KernelIdeal.Launch
import proofs.«151075_j88347477278870_1_alg».proof.Proof.Gen.KernelIdeal.Skeleton
import proofs.«151075_j88347477278870_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the three stretches of host
    operations before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the host stretches before the region, the region, and the host stretches after it: it reduces to the
    region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0, hostOps0_1, hostOps0_2] [hostOps1, hostOps1_1, hostOps1_2, hostOps1_3, hostOps1_4]
    (by simp only [List.Forall]; exact ⟨hostOps0_sub, hostOps0_1_sub, hostOps0_2_sub⟩)
    (by simp only [List.Forall]; exact ⟨hostOps0_fresh, hostOps0_1_fresh, hostOps0_2_fresh⟩) main_chain

/-- The stretches after the region, as the list the frame run takes. -/
abbrev tailOpss : List (List (HloOp τ sig (Elt F))) := [hostOps1, hostOps1_1, hostOps1_2, hostOps1_3, hostOps1_4]

/-- Every later operation touches unscoped TensorCore buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOpss, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOpss : List (List (HloOp τ sig (Elt F)))), ∀ op ∈ ops, op.fresh = ∅ := by
  intro ops hops op hop
  simp only [tailOpss, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- The region's five arrays: the event stream, the gate column, the transposed sensing matrix, the adjacency
    matrix (both rounded), and the state it writes. -/
theorem arr_cases : ∀ w : Fin 5, Pipeline.arrRef spec0 w = main_arg0 ∨ Pipeline.arrRef spec0 w = main_v48
    ∨ Pipeline.arrRef spec0 w = main_v50 ∨ Pipeline.arrRef spec0 w = main_v51 ∨ Pipeline.arrRef spec0 w = main_v52 := by decide

set_option maxHeartbeats 2000000 in
/-- No operation of this stretch writes one of the region's arrays: each writes only its own result buffer. -/
theorem hostOps1_keeps (w : Fin 5) : (hostOps1 : List (HloOp τ sig (Elt F))).Forall fun op =>
    Proc.devRef .tc (Pipeline.arrRef spec0 w) ∉ op.writes := by
  rcases arr_cases w with h | h | h | h | h <;> rw [h] <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 2000000 in
/-- No operation of this stretch writes one of the region's arrays: each writes only its own result buffer. -/
theorem hostOps1_1_keeps (w : Fin 5) : (hostOps1_1 : List (HloOp τ sig (Elt F))).Forall fun op =>
    Proc.devRef .tc (Pipeline.arrRef spec0 w) ∉ op.writes := by
  rcases arr_cases w with h | h | h | h | h <;> rw [h] <;>
  · simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 2000000 in
/-- No operation of this stretch writes one of the region's arrays: each writes only its own result buffer. -/
theorem hostOps1_2_keeps (w : Fin 5) : (hostOps1_2 : List (HloOp τ sig (Elt F))).Forall fun op =>
    Proc.devRef .tc (Pipeline.arrRef spec0 w) ∉ op.writes := by
  rcases arr_cases w with h | h | h | h | h <;> rw [h] <;>
  · simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 2000000 in
/-- No operation of this stretch writes one of the region's arrays: each writes only its own result buffer. -/
theorem hostOps1_3_keeps (w : Fin 5) : (hostOps1_3 : List (HloOp τ sig (Elt F))).Forall fun op =>
    Proc.devRef .tc (Pipeline.arrRef spec0 w) ∉ op.writes := by
  rcases arr_cases w with h | h | h | h | h <;> rw [h] <;>
  · simp only [hostOps1_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 2000000 in
/-- No operation of this stretch writes one of the region's arrays: each writes only its own result buffer. -/
theorem hostOps1_4_keeps (w : Fin 5) : (hostOps1_4 : List (HloOp τ sig (Elt F))).Forall fun op =>
    Proc.devRef .tc (Pipeline.arrRef spec0 w) ∉ op.writes := by
  rcases arr_cases w with h | h | h | h | h <;> rw [h] <;>
  · simp only [hostOps1_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The later stretches write none of the region's arrays. -/
theorem sfx_keeps : ∀ ops ∈ (tailOpss : List (List (HloOp τ sig (Elt F)))), ∀ op ∈ ops,
    ∀ w, Proc.devRef .tc (Pipeline.arrRef spec0 w) ∉ op.writes := by
  intro ops hops op hop w
  simp only [tailOpss, List.mem_cons, List.mem_nil_iff, or_false] at hops
  rcases hops with rfl | rfl | rfl | rfl | rfl
  · exact (List.forall_iff_forall_mem.mp (hostOps1_keeps w)) op hop
  · exact (List.forall_iff_forall_mem.mp (hostOps1_1_keeps w)) op hop
  · exact (List.forall_iff_forall_mem.mp (hostOps1_2_keeps w)) op hop
  · exact (List.forall_iff_forall_mem.mp (hostOps1_3_keeps w)) op hop
  · exact (List.forall_iff_forall_mem.mp (hostOps1_4_keeps w)) op hop

/-! ## The argument arrays are written by no host operation -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation after the region writes `main_arg1`, and it is none of the region's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOpss c main_arg1 = m ((c : Thread nD τ).loc main_arg1) := by
  unfold Pipeline.afterTail₀
  rw [StableHlo.after_of_forall_not_mem (b := Proc.devRef .tc main_arg1) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`, and it is none of the region's arrays: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOpss c main_arg2 = m ((c : Thread nD τ).loc main_arg2) := by
  unfold Pipeline.afterTail₀
  rw [StableHlo.after_of_forall_not_mem (b := Proc.devRef .tc main_arg2) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`, and it is none of the region's arrays: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOpss c main_arg3 = m ((c : Thread nD τ).loc main_arg3) := by
  unfold Pipeline.afterTail₀
  rw [StableHlo.after_of_forall_not_mem (b := Proc.devRef .tc main_arg3) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`, and it is none of the region's arrays: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOpss c main_arg4 = m ((c : Thread nD τ).loc main_arg4) := by
  unfold Pipeline.afterTail₀
  rw [StableHlo.after_of_forall_not_mem (b := Proc.devRef .tc main_arg4) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`, and it is none of the region's arrays: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOpss c main_arg5 = m ((c : Thread nD τ).loc main_arg5) := by
  unfold Pipeline.afterTail₀
  rw [StableHlo.after_of_forall_not_mem (b := Proc.devRef .tc main_arg5) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`, and it is none of the region's arrays: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) tailOpss c main_arg6 = m ((c : Thread nD τ).loc main_arg6) := by
  unfold Pipeline.afterTail₀
  rw [StableHlo.after_of_forall_not_mem (b := Proc.devRef .tc main_arg6) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`, and it is none of the region's arrays: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) tailOpss c main_arg7 = m ((c : Thread nD τ).loc main_arg7) := by
  unfold Pipeline.afterTail₀
  rw [StableHlo.after_of_forall_not_mem (b := Proc.devRef .tc main_arg7) _ _ (List.forall_iff_forall_mem.mp (by
      simp only [tailOpss, hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's frame run -/

/-- The frame: for any proof data whose arrays are the region-entry contents, a run to the frame post — every array
    of the region at what the proof data give, every other unscoped buffer as the later stretches leave it — leaves
    the eight argument arrays as launched: the event stream is a staged input, never written back; the other seven
    are no array of the region and no host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c))⟩) h

end Cert.KernelIdeal.Hand

end
-- ==== Proof.BodyIdeal.lean ====
/-
  The body of the fused sensing-and-adjacency kernel and the run of its region. At every grid point the body loads
  its four input blocks whole (a row block of the event stream, the matching rows of the gate column, the whole
  transposed sensing matrix, the whole adjacency matrix), reads its output block, and stores ONE value over the
  whole output block: the two matrix products of the masked rows. So each input buffer is left as found and the
  output buffer holds that value; the proof data say so at every point, and the region's frame run follows.
-/
import proofs.«151075_j88347477278870_1_alg».proof.Proof.HostIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store take a whole block -/

abbrev rEv : Rect S128x10240 := Rect.unit (s := S128x10240) ![0, 0] S128x10240.size inb_S128x10240_S128x10240_0_0
abbrev rKeep : Rect S128x1 := Rect.unit (s := S128x1) ![0, 0] S128x1.size inb_S128x1_S128x1_0_0
abbrev rSens : Rect S10240x1024 := Rect.unit (s := S10240x1024) ![0, 0] S10240x1024.size inb_S10240x1024_S10240x1024_0_0
abbrev rAdj : Rect S1024x1024 := Rect.unit (s := S1024x1024) ![0, 0] S1024x1024.size inb_S1024x1024_S1024x1024_0_0
abbrev rOut : Rect S128x1024 := Rect.unit (s := S128x1024) ![0, 0] S128x1024.size inb_S128x1024_S128x1024_0_0

/-! ## What the body leaves in the output window's buffer -/

/-- The output window's staging buffer after the body, from the four input blocks: its one store, over the whole
    block, of the body's arithmetic on the loaded blocks. -/
def outState (x0 : Vec F S128x10240 .f32) (x1 : Vec F S128x1 .f32) (x2 : Vec F S10240x1024 .bf16) (x3 : Vec F S1024x1024 .bf16) :
    Vec F S128x1024 .f32 :=
  View.canon [⟨rOut, k0_pay1 (View.ld x0 rEv) (View.ld x1 rKeep) (View.ld x2 rSens) (View.ld x3 rAdj)⟩]

/-- The one store covers the buffer. -/
theorem coverOut (p0 : Vec F S128x1024 .f32) (y : S128x1024.Idx) :
    ∃ pc ∈ ([⟨rOut, p0⟩] : List (View.Piece (Elt F) S128x1024 .f32)), y ∈ pc.1.set :=
  View.cover_of_tiled [⟨rOut, p0⟩] S128x1024.size (by rfl) y

/-! ## The body's triple -/

set_option maxHeartbeats 1000000 in
/-- The kernel body on whole staging memrefs, the inputs' at contents `x0 … x3` and the output's at anything, runs to
    the continuation holding the inputs' as they were and the output's at `outState` of the inputs'. -/
theorem sound_kernel (c : Dev nD) (E : Set ℕ) (i : grid0.Coords)
    (arg1 : Memref sig .tc .vmem S128x10240 .f32) (harg1 : arg1.IsWhole) (arg2 : Memref sig .tc .vmem S128x1 .f32) (harg2 : arg2.IsWhole)
    (arg3 : Memref sig .tc .vmem S10240x1024 .bf16) (harg3 : arg3.IsWhole) (arg4 : Memref sig .tc .vmem S1024x1024 .bf16) (harg4 : arg4.IsWhole)
    (arg5 : Memref sig .tc .vmem S128x1024 .f32) (harg5 : arg5.IsWhole)
    (x0 : Vec F S128x10240 .f32) (x1 : Vec F S128x1 .f32) (x2 : Vec F S10240x1024 .bf16) (x3 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outState x0 x1 x2 x3)) -∗ K ⟨⟩))
      ⊢ wp frame (wpE (defs₀ (F := F)) Variants.none c none) E (cc0__fused_sensing_adjacency_kernel i arg1 harg1 arg2 harg2 arg3 harg3 arg4 harg4 arg5 harg5) K := by
  simp only [cc0__fused_sensing_adjacency_kernel_eq_skeleton]; unfold cc0__fused_sensing_adjacency_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

/-! ## The region's proof data -/

/-- The proof data of the region on core `c`: the arrays as the region finds them; after the body at point `t`
    each input's buffer at its block and the output's at `outState` of the input blocks; the invariant is the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outState (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outState (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main on the
    TensorCores terminates, and every final state has every array of the region at what the proof data give and
    every other unscoped buffer as the stretches after the region leave it. -/
theorem run_main : θ_run defs (onTc (τ := τ) (main (F := F))) (s₀ m ρ)
    (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame claim's post at any instance of the float operations: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Tail.lean ====
import proofs.«151075_j88347477278870_1_alg».proof.Proof.Gen.KernelIdeal
import Idealize.ShloMosaic.PureOps.Ideal

/-! The host operations applied to the state.

Both programs apply the same operations to the state `s` (an `8192 × 1024` array): a two-layer policy
network `relu (s · w1ᵀ + b1) · w2ᵀ + b2`; the gradient of the mean of the network's output with respect to
`s`, of which only the sign is kept and a tenth of which is subtracted from `s`; the network again on the
perturbed state; and a softmax over each row of the result.  `tail` is that composition, one line per
operation, in program order.  `loss` is the sum over all entries of `|a2| * a3`. -/

noncomputable section

namespace Cert.Hand

open Idealize.ShloMosaic Cert.KernelIdeal Cert.KernelIdeal.Gen

/-- The policy network, the sign-gradient perturbation of the state, the network again, and the row
softmax, as a function of the state `s` and the network's weights. -/
def tail (s : FVec Ideal S8192x1024 .f32) (w1 : FVec Ideal S128x1024 .f32) (b1 : FVec Ideal S128 .f32)
    (w2 : FVec Ideal S64x128 .f32) (b2 : FVec Ideal S64 .f32) : FVec Ideal S8192x64 .f32 :=
  -- first layer on the state: s · w1ᵀ + b1
  have v56 : FVec Ideal S1024x128 .f32 := transpose S1024x128 [1, 0] w1 transposes_S128x1024_S1024x128_1_0
  have v57 : FVec Ideal S8192x128 .f32 := Host.dotGeneral dot_S8192x1024_S1024x128_S8192x128_1_0_0_1_n_n none s v56
  have v58 : FVec Ideal S1x128 .f32 := broadcastInDim S1x128 ![1] bcast_S128_S1x128_1 b1
  have v59 : FVec Ideal S8192x128 .f32 := broadcastInDim S8192x128 ![0, 1] bcast_S1x128_S8192x128_0_1 v58
  have v60 : FVec Ideal S8192x128 .f32 := addf v57 v59
  -- where the first layer is positive
  have v62 : FVec Ideal S8192x128 .f32 := broadcastInDim S8192x128 ![] bcast_S_S8192x128 (constant (F := Ideal) S_ .f32 0x00000000#32)
  have v63 : IVec S8192x128 1 := cmpf .ogt v60 v62
  have v65 : FVec Ideal S128x64 .f32 := transpose S128x64 [1, 0] w2 transposes_S64x128_S128x64_1_0
  -- the gradient of the mean output, pulled back through the second and the first layer
  have v72 : FVec Ideal S_ .f32 := Host.divf (constant (F := Ideal) S_ .f32 0x3F800000#32) (constant (F := Ideal) S_ .f32 0x49000000#32)
  have v73 : FVec Ideal S8192x64 .f32 := broadcastInDim S8192x64 ![] bcast_S_S8192x64 v72
  have v74 : FVec Ideal S8192x128 .f32 := Host.dotGeneral dot_S8192x64_S128x64_S8192x128_1_1_0_0_n_n none v73 v65
  have v75 : FVec Ideal S8192x128 .f32 := broadcastInDim S8192x128 ![] bcast_S_S8192x128 (constant (F := Ideal) S_ .f32 0x00000000#32)
  have v76 : FVec Ideal S8192x128 .f32 := select v63 v74 v75
  have v77 : FVec Ideal S8192x1024 .f32 := Host.dotGeneral dot_S8192x128_S1024x128_S8192x1024_1_1_0_0_n_n none v76 v56
  -- the state minus a tenth of the gradient's sign
  have v78 : FVec Ideal S8192x1024 .f32 := Host.sign v77
  have v79 : FVec Ideal S8192x1024 .f32 := broadcastInDim S8192x1024 ![] bcast_S_S8192x1024 (constant (F := Ideal) S_ .f32 0x3DCCCCCD#32)
  have v80 : FVec Ideal S8192x1024 .f32 := mulf v79 v78
  have v81 : FVec Ideal S8192x1024 .f32 := subf s v80
  -- the network on the perturbed state
  have v82 : FVec Ideal S1024x128 .f32 := transpose S1024x128 [1, 0] w1 transposes_S128x1024_S1024x128_1_0
  have v83 : FVec Ideal S8192x128 .f32 := Host.dotGeneral dot_S8192x1024_S1024x128_S8192x128_1_0_0_1_n_n none v81 v82
  have v84 : FVec Ideal S1x128 .f32 := broadcastInDim S1x128 ![1] bcast_S128_S1x128_1 b1
  have v85 : FVec Ideal S8192x128 .f32 := broadcastInDim S8192x128 ![0, 1] bcast_S1x128_S8192x128_0_1 v84
  have v86 : FVec Ideal S8192x128 .f32 := addf v83 v85
  have v87 : FVec Ideal S8192x128 .f32 := maximumf v86 (broadcastInDim S8192x128 ![] bcast_S_S8192x128 (constant (F := Ideal) S_ .f32 0x00000000#32))
  have v88 : FVec Ideal S128x64 .f32 := transpose S128x64 [1, 0] w2 transposes_S64x128_S128x64_1_0
  have v89 : FVec Ideal S8192x64 .f32 := Host.dotGeneral dot_S8192x128_S128x64_S8192x64_1_0_0_1_n_n none v87 v88
  have v90 : FVec Ideal S1x64 .f32 := broadcastInDim S1x64 ![1] bcast_S64_S1x64_1 b2
  have v91 : FVec Ideal S8192x64 .f32 := broadcastInDim S8192x64 ![0, 1] bcast_S1x64_S8192x64_0_1 v90
  have v92 : FVec Ideal S8192x64 .f32 := addf v89 v91
  -- the softmax of each row: subtract the row's maximum, exponentiate, divide by the row's sum
  have v93 : FVec Ideal S8192 .f32 := Host.reduce FloatOps.maximumf v92 (constant (F := Ideal) S_ .f32 0xFF800000#32) reducesTo_S8192x64_S8192_d1 h_S_
  have v94 : FVec Ideal S8192 .f32 := broadcastInDim S8192 ![] bcast_S_S8192 (constant (F := Ideal) S_ .f32 0xFF800000#32)
  have v95 : FVec Ideal S8192 .f32 := maximumf v94 v93
  have v96 : FVec Ideal S8192x1 .f32 := broadcastInDim S8192x1 ![0] bcast_S8192_S8192x1_0 v95
  have v97 : FVec Ideal S8192x64 .f32 := broadcastInDim S8192x64 ![0, 1] bcast_S8192x1_S8192x64_0_1 v96
  have v98 : FVec Ideal S8192x64 .f32 := subf v92 v97
  have v99 : FVec Ideal S8192x64 .f32 := Host.exp v98
  have v100 : FVec Ideal S8192 .f32 := Host.reduceAdd v99 (constant (F := Ideal) S_ .f32 0x00000000#32) reducesTo_S8192x64_S8192_d1 h_S_
  have v101 : FVec Ideal S8192x1 .f32 := broadcastInDim S8192x1 ![0] bcast_S8192_S8192x1_0 v100
  have v102 : FVec Ideal S8192x64 .f32 := broadcastInDim S8192x64 ![0, 1] bcast_S8192x1_S8192x64_0_1 v101
  Host.divf v99 v102

/-- The sum over all entries of `|a2| * a3`. -/
def loss (a2 a3 : FVec Ideal S1024x1024 .f32) : FVec Ideal S_ .f32 :=
  Host.reduceAdd (mulf (Host.absf a2) a3) (constant (F := Ideal) S_ .f32 0x00000000#32) reducesTo_S1024x1024_S_d0_1 h_S_

end Cert.Hand
-- ==== Proof.KernelTail.lean ====
/-
  The stretches of host operations after the region, read at the two results they compute: the action probabilities are
  `Cert.Hand.tail` of the state the region wrote and of the policy network's weights, the semantic loss is
  `Cert.Hand.loss` of the adjacency matrix and the mask. With the region's frame run this gives the program's run at
  the extended reals with both results named.
-/
import proofs.«151075_j88347477278870_1_alg».proof.Proof.BodyIdeal
import proofs.«151075_j88347477278870_1_alg».proof.Proof.Tail

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- What the later stretches find: the region's arrays as the proof data give them, every other buffer as the region
    found it. -/
abbrev W (c : Dev nD) : Valuation τ sig (Elt Ideal) :=
  Pipeline.withArrays spec0 c (V0 m c) fun w => (dats m 0 c).arrAt w cfg0.N

theorem W_state (c : Dev nD) : W m c (Proc.devRef .tc main_v52) = (dats m 0 c).arrAt 4 cfg0.N :=
  Pipeline.withArrays_arr spec0 launch0.win.arr_inj c _ _ 4
theorem W_arg2 (c : Dev nD) : W m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)
theorem W_arg3 (c : Dev nD) : W m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)
theorem W_arg4 (c : Dev nD) : W m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)
theorem W_arg5 (c : Dev nD) : W m c (Proc.devRef .tc main_arg5) = m ((c.tc : Thread nD τ).loc main_arg5) :=
  (Pipeline.withArrays_of_ne _ c (V0 m c) _ main_arg5 (by exact (by decide : ∀ w, Pipeline.arrRef spec0 w ≠ main_arg5))).trans (V_main_arg5 m c)
theorem W_arg6 (c : Dev nD) : W m c (Proc.devRef .tc main_arg6) = m ((c.tc : Thread nD τ).loc main_arg6) :=
  (Pipeline.withArrays_of_ne _ c (V0 m c) _ main_arg6 (by exact (by decide : ∀ w, Pipeline.arrRef spec0 w ≠ main_arg6))).trans (V_main_arg6 m c)
theorem W_arg7 (c : Dev nD) : W m c (Proc.devRef .tc main_arg7) = m ((c.tc : Thread nD τ).loc main_arg7) :=
  (Pipeline.withArrays_of_ne _ c (V0 m c) _ main_arg7 (by exact (by decide : ∀ w, Pipeline.arrRef spec0 w ≠ main_arg7))).trans (V_main_arg7 m c)

set_option maxHeartbeats 40000000 in
/-- The action probabilities: the later stretches' result at `main_v103` is the policy tail of the state. -/
theorem tail_probs (c : Dev nD) :
    Pipeline.afterTail₀ cfgs (dats m) 0 (V0 m) tailOpss c main_v103
      = Cert.Hand.tail ((dats m 0 c).arrAt 4 cfg0.N) (m ((c.tc : Thread nD τ).loc main_arg4)) (m ((c.tc : Thread nD τ).loc main_arg5)) (m ((c.tc : Thread nD τ).loc main_arg6)) (m ((c.tc : Thread nD τ).loc main_arg7)) := by
  unfold Pipeline.afterTail₀
  rw [← W_state m c, ← W_arg4 m c, ← W_arg5 m c, ← W_arg6 m c, ← W_arg7 m c]
  show StableHlo.after (List.flatten tailOpss) (W m c) (Proc.devRef .tc main_v103) = _
  generalize W m c = Wc
  simp only [tailOpss, hostOps1, hostOps1_1, hostOps1_2, hostOps1_3, hostOps1_4, List.flatten_cons, List.flatten_nil, List.append_nil, List.cons_append, List.nil_append]
  after_results_simp
  unfold Cert.Hand.tail
  rfl

/-- The semantic loss: the later stretches' result at `main_v55`. -/
theorem tail_loss (c : Dev nD) :
    Pipeline.afterTail₀ cfgs (dats m) 0 (V0 m) tailOpss c main_v55
      = Cert.Hand.loss (m ((c.tc : Thread nD τ).loc main_arg2)) (m ((c.tc : Thread nD τ).loc main_arg3)) := by
  unfold Pipeline.afterTail₀
  rw [← W_arg2 m c, ← W_arg3 m c]
  show StableHlo.after (List.flatten tailOpss) (W m c) (Proc.devRef .tc main_v55) = _
  generalize W m c = Wc
  simp only [tailOpss, hostOps1, hostOps1_1, hostOps1_2, hostOps1_3, hostOps1_4, List.flatten_cons, List.flatten_nil, List.append_nil, List.cons_append, List.nil_append]
  after_results_simp
  unfold Cert.Hand.loss
  rfl

/-- The program's run at the extended reals with its results named: the action probabilities are the policy tail of the
    array the region wrote, the adjacency matrix is returned as launched, the loss is `loss`; the arguments end as
    launched. -/
theorem run_named : θ_run defs (onTc (τ := τ) (main (F := Ideal))) ⟨m, fun _ => 0, ρ⟩ (fun r => ∀ c : Dev nD,
      r.2.mem ((c.tc : Thread nD τ).loc main_v103)
          = Cert.Hand.tail ((dats m 0 c).arrAt 4 cfg0.N) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg2) = m ((c.tc : Thread nD τ).loc main_arg2)
      ∧ r.2.mem ((c.tc : Thread nD τ).loc main_v55) = Cert.Hand.loss (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v103 (Pipeline.mem_restRefs_of main_v103 (by decide) (by decide))).trans (tail_probs m c),
      ((h c).2 main_arg2 (Pipeline.mem_restRefs_of main_arg2 (by decide) (by decide))).trans (W_main_arg2 m (dats m) c),
      ((h c).2 main_v55 (Pipeline.mem_restRefs_of main_v55 (by decide) (by decide))).trans (tail_loss m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main (F := Ideal) m ρ)

end Cert.KernelIdeal.Hand

end
-- ==== Proof.KernelHead.lean ====
/-
  What the fused sensing-and-adjacency program's results hold at the extended reals, read off the region's frame run.
  Before the region the host computes the gate column (one bit per row of the event stream, from the entropy of the
  row's histogram, laid as an [8192,1] column of zeros and ones), the transposed sensing matrix and the adjacency
  matrix (both rounded, which changes nothing here). After the region the host computes the semantic loss from the
  adjacency matrix and the mask, and the action probabilities from the region's state by the policy network, its
  sign-gradient perturbation and a softmax: `Cert.Hand.tail` of the state.
-/
import proofs.«151075_j88347477278870_1_alg».proof.Proof.HostIdeal
import proofs.«151075_j88347477278870_1_alg».proof.Proof.RefRead

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The arrays the host hands the region -/

/-- The region's third array is the sensing matrix transposed (and rounded). -/
theorem V_sensT (c : Dev nD) : V m c main_v50
    = (truncf .bf16 (transpose S10240x1024 [1, 0] (m ((c.tc : Thread nD τ).loc main_arg1)) Gen.transposes_S1024x10240_S10240x1024_1_0) Gen.bitsLt_bf16_f32 : FVec Ideal S10240x1024 .bf16) := by
  dsimp only [V, V0]
  simp only [hostOps0, hostOps0_1, hostOps0_2, List.flatten_cons, List.flatten_nil, List.append_nil, List.cons_append, List.nil_append]
  after_results_simp

/-- Its fourth array is the adjacency matrix (rounded). -/
theorem V_adj (c : Dev nD) : V m c main_v51
    = (truncf .bf16 (m ((c.tc : Thread nD τ).loc main_arg2)) Gen.bitsLt_bf16_f32 : FVec Ideal S1024x1024 .bf16) := by
  dsimp only [V, V0]
  simp only [hostOps0, hostOps0_1, hostOps0_2, List.flatten_cons, List.flatten_nil, List.append_nil, List.cons_append, List.nil_append]
  after_results_simp

set_option maxHeartbeats 40000000 in
/-- Its second array is the gate: the bit vector the reference program also computes (one bit per row: is the entropy of
    the row's histogram at least 2.5), converted to zeros and ones and laid as a column. -/
theorem V_gate (c : Dev nD) : V m c main_v48
    = (broadcastInDim S8192x1 ![0] Gen.bcast_S8192_S8192x1_0
        (uitofp .f32 (Cert.ReferenceIdeal.Read.val_main_v48 (F := Ideal) (m ((c.tc : Thread nD τ).loc main_arg0)))) : FVec Ideal S8192x1 .f32) := by
  dsimp only [V, V0]
  simp only [hostOps0, hostOps0_1, hostOps0_2, List.flatten_cons, List.flatten_nil, List.append_nil, List.cons_append, List.nil_append]
  after_results_simp
  unfold Cert.ReferenceIdeal.Read.val_main_v48 Cert.ReferenceIdeal.Read.val_main_v44 Cert.ReferenceIdeal.Read.val_main_v47 Cert.ReferenceIdeal.Read.val_main_cst_14 Cert.ReferenceIdeal.Read.val_main_v43 Cert.ReferenceIdeal.Read.val_main_v42 Cert.ReferenceIdeal.Read.val_main_cst_13 Cert.ReferenceIdeal.Read.val_main_v41 Cert.ReferenceIdeal.Read.val_main_v40 Cert.ReferenceIdeal.Read.val_main_v39 Cert.ReferenceIdeal.Read.val_main_cst_12 Cert.ReferenceIdeal.Read.val_main_v38 Cert.ReferenceIdeal.Read.val_main_v37 Cert.ReferenceIdeal.Read.val_main_v36 Cert.ReferenceIdeal.Read.val_main_v35 Cert.ReferenceIdeal.Read.val_main_cst_11 Cert.ReferenceIdeal.Read.val_main_v34 Cert.ReferenceIdeal.Read.val_main_v33 Cert.ReferenceIdeal.Read.val_main_cst_10 Cert.ReferenceIdeal.Read.val_main_v32 Cert.ReferenceIdeal.Read.val_main_v18 Cert.ReferenceIdeal.Read.val_main_cst_5 Cert.ReferenceIdeal.Read.val_main_v31 Cert.ReferenceIdeal.Read.val_main_v29 Cert.ReferenceIdeal.Read.val_main_v23 Cert.ReferenceIdeal.Read.val_main_v20 Cert.ReferenceIdeal.Read.val_main_v19 Cert.ReferenceIdeal.Read.val_main_c_6 Cert.ReferenceIdeal.Read.val_main_v22 Cert.ReferenceIdeal.Read.val_main_v21 Cert.ReferenceIdeal.Read.val_main_c_7 Cert.ReferenceIdeal.Read.val_main_v17 Cert.ReferenceIdeal.Read.val_main_v16 Cert.ReferenceIdeal.Read.val_main_v15 Cert.ReferenceIdeal.Read.val_main_v30 Cert.ReferenceIdeal.Read.val_main_v28 Cert.ReferenceIdeal.Read.val_main_v25 Cert.ReferenceIdeal.Read.val_main_v24 Cert.ReferenceIdeal.Read.val_main_c_8 Cert.ReferenceIdeal.Read.val_main_v27 Cert.ReferenceIdeal.Read.val_main_v26 Cert.ReferenceIdeal.Read.val_main_c_9 Cert.ReferenceIdeal.Read.val_main_v8 Cert.ReferenceIdeal.Read.val_main_call0_v4 Cert.ReferenceIdeal.Read.val_main_call0_v3 Cert.ReferenceIdeal.Read.val_main_c_2 Cert.ReferenceIdeal.Read.val_main_call0_v2 Cert.ReferenceIdeal.Read.val_main_call0_v1 Cert.ReferenceIdeal.Read.val_main_call0_v0 Cert.ReferenceIdeal.Read.val_main_c Cert.ReferenceIdeal.Read.val_main_v7 Cert.ReferenceIdeal.Read.val_main_v6 Cert.ReferenceIdeal.Read.val_main_v5 Cert.ReferenceIdeal.Read.val_main_v4 Cert.ReferenceIdeal.Read.val_main_cst_1 Cert.ReferenceIdeal.Read.val_main_v3 Cert.ReferenceIdeal.Read.val_main_v2 Cert.ReferenceIdeal.Read.val_main_cst_0 Cert.ReferenceIdeal.Read.val_main_v1 Cert.ReferenceIdeal.Read.val_main_v0 Cert.ReferenceIdeal.Read.val_main_cst Cert.ReferenceIdeal.Read.val_main_v14 Cert.ReferenceIdeal.Read.val_main_v13 Cert.ReferenceIdeal.Read.val_main_v10 Cert.ReferenceIdeal.Read.val_main_v9 Cert.ReferenceIdeal.Read.val_main_cst_3 Cert.ReferenceIdeal.Read.val_main_v12 Cert.ReferenceIdeal.Read.val_main_v11 Cert.ReferenceIdeal.Read.val_main_cst_4
  rfl

end Cert.KernelIdeal.Hand

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.Payload.lean ====
/-
  The kernel body's arithmetic read at one index.

  The body multiplies the event block by the row mask spread over the columns, contracts the masked block with the
  sensing operand and contracts the result with the adjacency operand, both products into a zero accumulator. At the
  extended reals a change of format is the identity and a shape cast to the same shape is the identity, so the value
  at (p, q) is the iterated sum  ∑ n, (∑ d, (v0 (p, d) * v1 (p, 0)) * v7 (d, n)) * v11 (n, q).
-/
import proofs.«151075_j88347477278870_1_alg».proof.Proof.Gen.KernelIdeal.Skeleton
import proofs.«151075_j88347477278870_1_alg».proof.Proof.LibDense
import Idealize.ShloMosaic.Lib.ValueIdx
import Idealize.ShloMosaic.Lib.Pipeline.Value
import Idealize.ShloMosaic.Lib.ValueLayout
import Idealize.ShloMosaic.PureOps.Ideal.Laws

noncomputable section

namespace Cert.Hand

open Idealize.ShloMosaic Idealize.ShloMosaic.ValueIdx Cert.KernelIdeal

/-- The body's stored value at (p, q): mask first, then the two contractions. -/
theorem pay_apply (v0 : Vec Ideal S128x10240 .f32) (v1 : Vec Ideal S128x1 .f32) (v7 : Vec Ideal S10240x1024 .bf16)
    (v11 : Vec Ideal S1024x1024 .bf16) (p : Fin 128) (q : Fin 1024) :
    Cert.KernelIdeal.Gen.k0_pay1 (F := Ideal) v0 v1 v7 v11 (ix2 p q)
      = ∑ n : Fin 1024, (∑ d : Fin 10240, (v0 (ix2 p d) * v1 (ix2 p (0 : Fin 1))) * v7 (ix2 d n)) * v11 (ix2 n q) := by
  unfold Gen.k0_pay1
  -- the second contraction at (p, q)
  refine (Cert.LibDense.matmul_zero_plain _ none _ _ p q).trans ?_
  refine Finset.sum_congr rfl fun n _ => ?_
  refine congrArg₂ (· * ·) ?_ (congrFun (shapeCast_self v11 _) (ix2 n q))
  -- the narrowed first contraction at (p, n)
  refine (truncf_apply (φ := .f32) (ψ := .bf16) _ Gen.bitsLt_bf16_f32 (ix2 p n)).trans ?_
  refine (Cert.LibDense.matmul_zero_plain _ none _ _ p n).trans ?_
  refine Finset.sum_congr rfl fun d _ => ?_
  refine congrArg₂ (· * ·) ?_ (congrFun (shapeCast_self v7 _) (ix2 d n))
  -- the narrowed masked block at (p, d)
  refine (truncf_apply (φ := .f32) (ψ := .bf16) _ Gen.bitsLt_bf16_f32 (ix2 p d)).trans ?_
  refine (mulf_apply (φ := .f32) _ _ (ix2 p d)).trans ?_
  refine congrArg (v0 (ix2 p d) * ·) ?_
  -- the mask column spread over the columns, read at (p, d)
  refine (Cert.LibDense.spread_col_apply _ _ p d).trans ?_
  exact congrFun ((shapeCast_self _ _).trans (shapeCast_self v1 _)) (ix2 p (0 : Fin 1))

end Cert.Hand

end
-- ==== Proof.MaskLaw.lean ====
/-
  The row mask commutes with a contraction when the mask value is 0 or 1, on the extended reals.

  For k = 1 both sides are the unmasked sum (x * 1 = x). For k = 0 every masked term is (a d * 0) * s d = 0 and the
  right-hand side is (∑ …) * 0 = 0: on the extended reals x * 0 = 0 and 0 * x = 0 for every x, the infinities included,
  so no finiteness of the operands is needed.
-/
import Mathlib.Data.EReal.Inv
import Idealize.ShloMosaic.PureOps.Ideal

noncomputable section

namespace Cert.Hand

open Idealize.ShloMosaic

/-- A factor 0 or 1 applied to the left operand of every term of a contraction is that factor applied to the sum. -/
theorem mask_sum {K : Nat} (a s : Fin K → EReal) (k : EReal) (hk : k = 0 ∨ k = 1) :
    ∑ d, (a d * k) * s d = (∑ d, a d * s d) * k := by
  rcases hk with rfl | rfl
  · simp only [mul_zero, zero_mul, Finset.sum_const_zero]
  · simp only [mul_one]

/-- Masking the rows before the first contraction or after it gives the same second contraction. -/
theorem state_law {K N : Nat} (ev : Fin K → EReal) (sT : Fin K → Fin N → EReal) (adj : Fin N → EReal) (k : EReal)
    (hk : k = 0 ∨ k = 1) :
    ∑ n, (∑ d, (ev d * k) * sT d n) * adj n = ∑ n, ((∑ d, ev d * sT d n) * k) * adj n :=
  Finset.sum_congr rfl fun n _ => congrArg (· * adj n) (mask_sum ev (fun d => sT d n) k hk)

/-- A one-bit word converted to a float, read unsigned, is 0 or 1. -/
theorem uitofp_bit01 {S : Shape} (b : (⟨S, .i1⟩ : BufTy).Contents (Elt Ideal)) (j : S.Idx) :
    (uitofp .f32 b : FVec Ideal S .f32) j = 0 ∨ (uitofp .f32 b : FVec Ideal S .f32) j = 1 := by
  show (((b j).toNat : ℝ) : EReal) = 0 ∨ (((b j).toNat : ℝ) : EReal) = 1
  rcases BitVec.eq_zero_or_eq_one (b j) with h | h
  · left; rw [h]; simp
  · right; rw [h]; simp

end Cert.Hand

end
-- ==== Proof.HeadReads.lean ====
/-
  The kernel program's host-side operand arrays read at one index.

  The sensing operand handed to the kernel is the sensing matrix transposed and narrowed: at (d, n) it is the matrix at
  (n, d), since a change of format is the identity on the extended reals. The adjacency operand is the adjacency matrix
  narrowed: the same entry. The row mask handed to the kernel is the converted bit vector laid out as a column: at
  (i, 0) it is the vector's entry i.
-/
import proofs.«151075_j88347477278870_1_alg».proof.Proof.Gen.KernelIdeal
import Idealize.ShloMosaic.Lib.ValueIdx
import Idealize.ShloMosaic.Lib.Pipeline.Value
import Idealize.ShloMosaic.Lib.ValueLayout

noncomputable section

namespace Cert.Hand

open Idealize.ShloMosaic Idealize.ShloMosaic.ValueIdx Cert.KernelIdeal

/-- The transposed, narrowed sensing matrix at (d, n) is the sensing matrix at (n, d). -/
theorem sT_apply (x1 : FVec Ideal S1024x10240 .f32) (d : Fin 10240) (n : Fin 1024) :
    (truncf .bf16 (transpose S10240x1024 [1, 0] x1 Gen.transposes_S1024x10240_S10240x1024_1_0) Gen.bitsLt_bf16_f32 :
        FVec Ideal S10240x1024 .bf16) (ix2 d n) = x1 (ix2 n d) :=
  transpose_apply [1, 0] x1 Gen.transposes_S1024x10240_S10240x1024_1_0 (ix2 d n) (ix2 n d) (fun b => match b with
    | ⟨0, _⟩ => rfl
    | ⟨1, _⟩ => rfl)

/-- The narrowed adjacency matrix at (n, q) is the adjacency matrix at (n, q). -/
theorem adj_apply (x2 : FVec Ideal S1024x1024 .f32) (n q : Fin 1024) :
    (truncf .bf16 x2 Gen.bitsLt_bf16_f32 : FVec Ideal S1024x1024 .bf16) (ix2 n q) = x2 (ix2 n q) := rfl

/-- The converted bit vector laid out as a column, at (i, 0), is the converted vector's entry i. -/
theorem keepcol_apply (b : (⟨S8192, .i1⟩ : BufTy).Contents (Elt Ideal)) (i : Fin 8192) :
    (broadcastInDim S8192x1 ![0] Gen.bcast_S8192_S8192x1_0 (uitofp .f32 b) : FVec Ideal S8192x1 .f32) (ix2 i (0 : Fin 1))
      = (uitofp .f32 b : FVec Ideal S8192 .f32) (ix1 i) := by
  generalize (uitofp .f32 b : FVec Ideal S8192 .f32) = y
  exact broadcastInDim_apply _ Gen.bcast_S8192_S8192x1_0 y (ix2 i (0 : Fin 1)) (ix1 i) (fun a => match a with
    | ⟨0, _⟩ => by show i.val = if (8192 : Nat) = 1 then 0 else i.val; rw [if_neg (by decide)])

end Cert.Hand

end
-- ==== Proof.KernelState.lean ====
/-
  The state array after the region, read at every index.

  The region runs the body at 64 grid points. At point t the body sees rows 128·t … 128·t + 127 of the event stream and of
  the mask column, the whole transposed sensing matrix and the whole adjacency matrix, and writes rows 128·t … 128·t + 127
  of the state. Entry (p, q) of what it writes is  ∑ n, (∑ d, (ev (128·t + p, d) · keep (128·t + p)) · S (n, d)) · A (n, q);
  the mask entry is 0 or 1, so it moves out of the inner sum, and the entry is the specification's value at row 128·t + p.
  The 64 row blocks cover the array (row r is in block r / 128), so the array ends holding the specification.
-/
import proofs.«151075_j88347477278870_1_alg».proof.Proof.BodyIdeal
import proofs.«151075_j88347477278870_1_alg».proof.Proof.Payload
import proofs.«151075_j88347477278870_1_alg».proof.Proof.MaskLaw
import proofs.«151075_j88347477278870_1_alg».proof.Proof.HeadReads
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The windows' block indices over the grid -/

/-- Decided over the 64 points: the event block, the mask block and the state block of point t are row block t; the two
    weight windows are the whole arrays. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each input block as rows of its array -/

section Blocks
variable {F : FTy → Type} [FloatOps F]
variable (m : (ℓ : Loc nD τ sig) → Buf (Elt F) ℓ)

/-- The event block at point t is rows 128·t … 128·t + 127 of the event stream. -/
theorem evBlock_apply (c : Dev nD) (t : Fin cfg0.N) (y : S128x10240.Idx) (k : S8192x10240.Idx)
    (hk0 : (k 0).val = 128 * t.val + (y 0).val) (hk1 : (k 1).val = (y 1).val) :
    (iblk m c 0 t : Vec F S128x10240 .f32) y = (V m c main_arg0 : S8192x10240.Idx → Elt F .f32) k := by
  obtain ⟨e0, e1, -⟩ := block_indices t
  unfold iblk
  rw [View.read_apply]
  show V m c main_arg0 _ = V m c main_arg0 _
  congr 1
  funext a
  apply Fin.ext
  match a with
  | ⟨0, _⟩ => show win0_0.index t 0 * 128 + 1 * (y 0).val = (k 0).val; rw [e0, hk0]; omega
  | ⟨1, _⟩ => show win0_0.index t 1 * 10240 + 1 * (y 1).val = (k 1).val; rw [e1, hk1]; omega

/-- The mask block at point t is rows 128·t … 128·t + 127 of the mask column. -/
theorem keepBlock_apply (c : Dev nD) (t : Fin cfg0.N) (y : S128x1.Idx) (k : S8192x1.Idx)
    (hk0 : (k 0).val = 128 * t.val + (y 0).val) (hk1 : (k 1).val = (y 1).val) :
    (iblk m c 1 t : Vec F S128x1 .f32) y = (V m c main_v48 : S8192x1.Idx → Elt F .f32) k := by
  obtain ⟨-, -, e0, e1, -⟩ := block_indices t
  unfold iblk
  rw [View.read_apply]
  show V m c main_v48 _ = V m c main_v48 _
  congr 1
  funext a
  apply Fin.ext
  match a with
  | ⟨0, _⟩ => show win0_1.index t 0 * 128 + 1 * (y 0).val = (k 0).val; rw [e0, hk0]; omega
  | ⟨1, _⟩ => show win0_1.index t 1 * 1 + 1 * (y 1).val = (k 1).val; rw [e1, hk1]; omega

/-- The sensing window's block at every point is the whole transposed sensing matrix. -/
theorem sensBlock_eq (c : Dev nD) (t : Fin cfg0.N) :
    (iblk m c 2 t : Vec F S10240x1024 .bf16) = (V m c main_v50 : S10240x1024.Idx → Elt F .bf16) := by
  obtain ⟨-, -, -, -, e0, e1, -⟩ := block_indices t
  funext y
  unfold iblk
  rw [View.read_apply]
  show V m c main_v50 _ = V m c main_v50 _
  congr 1
  funext a
  apply Fin.ext
  match a with
  | ⟨0, _⟩ => show win0_2.index t 0 * 10240 + 1 * (y 0).val = (y 0).val; rw [e0]; omega
  | ⟨1, _⟩ => show win0_2.index t 1 * 1024 + 1 * (y 1).val = (y 1).val; rw [e1]; omega

/-- The adjacency window's block at every point is the whole adjacency matrix. -/
theorem adjBlock_eq (c : Dev nD) (t : Fin cfg0.N) :
    (iblk m c 3 t : Vec F S1024x1024 .bf16) = (V m c main_v51 : S1024x1024.Idx → Elt F .bf16) := by
  obtain ⟨-, -, -, -, -, -, e0, e1, -⟩ := block_indices t
  funext y
  unfold iblk
  rw [View.read_apply]
  show V m c main_v51 _ = V m c main_v51 _
  congr 1
  funext a
  apply Fin.ext
  match a with
  | ⟨0, _⟩ => show win0_3.index t 0 * 1024 + 1 * (y 0).val = (y 0).val; rw [e0]; omega
  | ⟨1, _⟩ => show win0_3.index t 1 * 1024 + 1 * (y 1).val = (y 1).val; rw [e1]; omega

end Blocks

/-! ## The body's value at one entry, over variables -/

section Entry

/-- Entry (p, q) of what the body writes, when row p of the event block and of the mask block are row r of the arrays and
    the two weight blocks are the transposed sensing matrix and the adjacency matrix: the specification at (r, q).
    The mask entry is 0 or 1, so it moves from every term of the inner sum to the sum. -/
theorem entry_value
    (X0 : Vec Ideal S128x10240 .f32) (X1 : Vec Ideal S128x1 .f32) (X2 : Vec Ideal S10240x1024 .bf16) (X3 : Vec Ideal S1024x1024 .bf16)
    (x0 : FVec Ideal S8192x10240 .f32) (x1 : FVec Ideal S1024x10240 .f32) (x2 : FVec Ideal S1024x1024 .f32)
    (bits : (⟨S8192, .i1⟩ : BufTy).Contents (Elt Ideal)) (G : FVec Ideal S8192x1024 .f32)
    (hG : ∀ (i : Fin 8192) (j : Fin 1024), G (ix2 i j) = ∑ n : Fin 1024,
      ((∑ d : Fin 10240, x0 (ix2 i d) * x1 (ix2 n d)) * (uitofp .f32 bits : FVec Ideal S8192 .f32) (ix1 i)) * x2 (ix2 n j))
    (r : Fin 8192) (p : Fin 128) (q : Fin 1024)
    (e0 : ∀ d : Fin 10240, X0 (ix2 p d) = x0 (ix2 r d))
    (e1 : X1 (ix2 p (0 : Fin 1)) = (uitofp .f32 bits : FVec Ideal S8192 .f32) (ix1 r))
    (e2 : ∀ (d : Fin 10240) (n : Fin 1024), X2 (ix2 d n) = x1 (ix2 n d))
    (e3 : ∀ n : Fin 1024, X3 (ix2 n q) = x2 (ix2 n q)) :
    k0_pay1 (F := Ideal) X0 X1 X2 X3 (ix2 p q) = G (ix2 r q) := by
  refine (Cert.Hand.pay_apply X0 X1 X2 X3 p q).trans ?_
  refine Eq.trans ?_ ((Cert.Hand.state_law (fun d => x0 (ix2 r d)) (fun d n => x1 (ix2 n d)) (fun n => x2 (ix2 n q))
    ((uitofp .f32 bits : FVec Ideal S8192 .f32) (ix1 r)) (Cert.Hand.uitofp_bit01 bits (ix1 r))).trans (hG r q).symm)
  refine Finset.sum_congr rfl fun n _ => ?_
  refine congrArg₂ (· * ·) (Finset.sum_congr rfl fun d _ => ?_) (e3 n)
  rw [e0 d, e1, e2 d n]

/-- The same at an index j of the block and the index i of the array that j lands on at point number tv, from the blocks
    read as rows of their arrays. -/
theorem block_value
    (X0 : Vec Ideal S128x10240 .f32) (X1 : Vec Ideal S128x1 .f32) (X2 : Vec Ideal S10240x1024 .bf16) (X3 : Vec Ideal S1024x1024 .bf16)
    (x0 : FVec Ideal S8192x10240 .f32) (x1 : FVec Ideal S1024x10240 .f32) (x2 : FVec Ideal S1024x1024 .f32)
    (bits : (⟨S8192, .i1⟩ : BufTy).Contents (Elt Ideal)) (G : FVec Ideal S8192x1024 .f32)
    (hG : ∀ (i : Fin 8192) (j : Fin 1024), G (ix2 i j) = ∑ n : Fin 1024,
      ((∑ d : Fin 10240, x0 (ix2 i d) * x1 (ix2 n d)) * (uitofp .f32 bits : FVec Ideal S8192 .f32) (ix1 i)) * x2 (ix2 n j))
    (tv : Nat)
    (e0 : ∀ (y : S128x10240.Idx) (k : S8192x10240.Idx), (k 0).val = 128 * tv + (y 0).val → (k 1).val = (y 1).val → X0 y = x0 k)
    (e1 : ∀ (y : S128x1.Idx) (k : S8192x1.Idx), (k 0).val = 128 * tv + (y 0).val → (k 1).val = (y 1).val →
      X1 y = (broadcastInDim S8192x1 ![0] Gen.bcast_S8192_S8192x1_0 (uitofp .f32 bits) : FVec Ideal S8192x1 .f32) k)
    (e2 : X2 = (truncf .bf16 (transpose S10240x1024 [1, 0] x1 Gen.transposes_S1024x10240_S10240x1024_1_0) Gen.bitsLt_bf16_f32 :
      FVec Ideal S10240x1024 .bf16))
    (e3 : X3 = (truncf .bf16 x2 Gen.bitsLt_bf16_f32 : FVec Ideal S1024x1024 .bf16))
    (j : S128x1024.Idx) (i : S8192x1024.Idx) (hi0 : (i 0).val = 128 * tv + (j 0).val) (hi1 : (i 1).val = (j 1).val) :
    k0_pay1 (F := Ideal) X0 X1 X2 X3 j = G i := by
  obtain ⟨p, q, rfl⟩ : ∃ (p : Fin 128) (q : Fin 1024), j = ix2 p q := ⟨j 0, j 1, eq_ix2 j⟩
  obtain ⟨r, q', rfl⟩ : ∃ (r : Fin 8192) (q' : Fin 1024), i = ix2 r q' := ⟨i 0, i 1, eq_ix2 i⟩
  obtain rfl : q' = q := Fin.ext hi1
  refine entry_value X0 X1 X2 X3 x0 x1 x2 bits G hG r p q' (fun d => e0 (ix2 p d) (ix2 r d) hi0 rfl) ?_ ?_ ?_
  · exact (e1 (ix2 p (0 : Fin 1)) (ix2 r (0 : Fin 1)) hi0 rfl).trans (Cert.Hand.keepcol_apply bits r)
  · intro d n; rw [e2]; exact Cert.Hand.sT_apply x1 d n
  · intro n; rw [e3]; exact Cert.Hand.adj_apply x2 n q'

end Entry

/-! ## What a point writes back, and the array after the region -/

section Final
variable (m : (ℓ : Loc nD τ sig) → Buf (Elt Ideal) ℓ) (c : Dev nD)
variable (x0 : FVec Ideal S8192x10240 .f32) (x1 : FVec Ideal S1024x10240 .f32) (x2 : FVec Ideal S1024x1024 .f32)
variable (bits : (⟨S8192, .i1⟩ : BufTy).Contents (Elt Ideal))

theorem zero_offsets : (![0, 0] : Fin 2 → Nat) = fun _ => 0 := funext fun a => by fin_cases a <;> rfl

/-- Point t writes back rows 128·t … 128·t + 127 of the specification. -/
theorem written_eq
    (h0 : V m c main_arg0 = x0)
    (hkeep : V m c main_v48 = (broadcastInDim S8192x1 ![0] Gen.bcast_S8192_S8192x1_0 (uitofp .f32 bits) : FVec Ideal S8192x1 .f32))
    (hsT : V m c main_v50 = (truncf .bf16 (transpose S10240x1024 [1, 0] x1 Gen.transposes_S1024x10240_S10240x1024_1_0) Gen.bitsLt_bf16_f32 :
      FVec Ideal S10240x1024 .bf16))
    (hadj : V m c main_v51 = (truncf .bf16 x2 Gen.bitsLt_bf16_f32 : FVec Ideal S1024x1024 .bf16))
    (G : FVec Ideal S8192x1024 .f32)
    (hG : ∀ (i : Fin 8192) (j : Fin 1024), G (ix2 i j) = ∑ n : Fin 1024,
      ((∑ d : Fin 10240, x0 (ix2 i d) * x1 (ix2 n d)) * (uitofp .f32 bits : FVec Ideal S8192 .f32) (ix1 i)) * x2 (ix2 n j))
    (t : Fin cfg0.N) :
    (dats m 0 c).flushed 4 t = ((cfg0.win 4).blk t).view.read (Elt Ideal) G := by
  show (cfg0.win 4).cut (grid0.coords t) ((dats m 0 c).after 4 t) = _
  rw [after0_4]
  unfold outState
  rw [View.canon_unit_zero zero_offsets]
  simp only [View.ld_unit_zero (S := S128x10240) zero_offsets, View.ld_unit_zero (S := S128x1) zero_offsets,
    View.ld_unit_zero (S := S10240x1024) zero_offsets, View.ld_unit_zero (S := S1024x1024) zero_offsets]
  obtain ⟨-, -, -, -, -, -, -, -, e0, e1⟩ := block_indices t
  funext j
  show k0_pay1 (F := Ideal) (iblk m c 0 t) (iblk m c 1 t) (iblk m c 2 t) (iblk m c 3 t) j = G (((cfg0.win 4).blk t).view.emb j)
  refine block_value (iblk m c 0 t) (iblk m c 1 t) (iblk m c 2 t) (iblk m c 3 t) x0 x1 x2 bits G hG t.val
    (fun y k hk0 hk1 => (evBlock_apply m c t y k hk0 hk1).trans (congrFun h0 k))
    (fun y k hk0 hk1 => (keepBlock_apply m c t y k hk0 hk1).trans (congrFun hkeep k))
    ((sensBlock_eq m c t).trans hsT) ((adjBlock_eq m c t).trans hadj) j (((cfg0.win 4).blk t).view.emb j) ?_ ?_
  · show win0_4.index t 0 * 128 + 1 * (j 0).val = 128 * t.val + (j 0).val
    rw [e0]; omega
  · show win0_4.index t 1 * 1024 + 1 * (j 1).val = (j 1).val
    rw [e1]; omega

/-- An index of the state array is in point t's block iff each coordinate is in the block's range on its axis. -/
theorem mem_stateBlock (t : Fin cfg0.N) (i : S8192x1024.Idx) :
    i ∈ ((cfg0.win 4).blk t).view.set ↔ ∀ a : Fin 2, win0_4.index t a * S128x1024.size a ≤ (i a).val
      ∧ (i a).val < win0_4.index t a * S128x1024.size a + S128x1024.size a := by
  show i ∈ ((View.whole main_v52).slice (win0_4.rect t)).set ↔ _
  rw [View.set_slice_whole, Rect.mem_set_unit]
  exact Iff.rfl

/-- Row r of the state array is written back by point r / 128. -/
theorem rows_covered (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 64 := N_0
  refine ⟨⟨(i 0).val / 128, by rw [hN]; omega⟩, flush0_4 _, ?_⟩
  rw [mem_stateBlock]
  obtain ⟨-, -, -, -, -, -, -, -, e0, e1⟩ := block_indices ⟨(i 0).val / 128, by rw [hN]; omega⟩
  intro a
  match a with
  | ⟨0, _⟩ =>
    show win0_4.index ⟨(i 0).val / 128, _⟩ 0 * 128 ≤ (i 0).val ∧ (i 0).val < win0_4.index ⟨(i 0).val / 128, _⟩ 0 * 128 + 128
    rw [e0]; show (i 0).val / 128 * 128 ≤ (i 0).val ∧ (i 0).val < (i 0).val / 128 * 128 + 128; omega
  | ⟨1, _⟩ =>
    show win0_4.index ⟨(i 0).val / 128, _⟩ 1 * 1024 ≤ (i 1).val ∧ (i 1).val < win0_4.index ⟨(i 0).val / 128, _⟩ 1 * 1024 + 1024
    rw [e1]; omega

/-- THE STATE ARRAY after the region is the specification: each point writes its row block of it, and the blocks cover
    the array. -/
theorem state_final
    (h0 : V m c main_arg0 = x0)
    (hkeep : V m c main_v48 = (broadcastInDim S8192x1 ![0] Gen.bcast_S8192_S8192x1_0 (uitofp .f32 bits) : FVec Ideal S8192x1 .f32))
    (hsT : V m c main_v50 = (truncf .bf16 (transpose S10240x1024 [1, 0] x1 Gen.transposes_S1024x10240_S10240x1024_1_0) Gen.bitsLt_bf16_f32 :
      FVec Ideal S10240x1024 .bf16))
    (hadj : V m c main_v51 = (truncf .bf16 x2 Gen.bitsLt_bf16_f32 : FVec Ideal S1024x1024 .bf16))
    (G : FVec Ideal S8192x1024 .f32)
    (hG : ∀ (i : Fin 8192) (j : Fin 1024), G (ix2 i j) = ∑ n : Fin 1024,
      ((∑ d : Fin 10240, x0 (ix2 i d) * x1 (ix2 n d)) * (uitofp .f32 bits : FVec Ideal S8192 .f32) (ix1 i)) * x2 (ix2 n j)) :
    (dats m 0 c).arrAt 4 cfg0.N = G :=
  (dats m 0 c).arrAt_eq_of_cover 4 G (fun t _ => written_eq m c x0 x1 x2 bits h0 hkeep hsT hadj G hG t) rows_covered

end Final

end Cert.KernelIdeal.Hand

end
-- ==== Proof.RefState.lean ====
import proofs.«151075_j88347477278870_1_alg».proof.Proof.RefRead
import Idealize.ShloMosaic.Lib.ValueIdx

/-! The reference's state, read at an index.

The reference forms, for each event row `i` and sensor `n`, the inner product of the row with the
sensing row `n`, multiplies it by the row's gate, and contracts the result with the adjacency
matrix.  Read at `(i, j)` the state is therefore
`∑ n, ((∑ d, ev[i,d] * S[n,d]) * gate[i]) * A[n,j]`.
The gate of row `i` is the unsigned-integer-to-float conversion of the row's comparison bit. -/

noncomputable section

namespace Cert.Hand

open Idealize.ShloMosaic Cert.ReferenceIdeal Cert.ReferenceIdeal.Read

/-- The state at `(i, j)`: the gated inner products of row `i` contracted with column `j` of the
adjacency matrix. -/
theorem refState_apply (x0 : FVec Ideal Cert.ReferenceIdeal.S8192x10240 .f32)
    (x1 : FVec Ideal Cert.ReferenceIdeal.S1024x10240 .f32)
    (x2 : FVec Ideal Cert.ReferenceIdeal.S1024x1024 .f32) (i : Fin 8192) (j : Fin 1024) :
    Cert.ReferenceIdeal.Read.val_main_v53 (F := Ideal) x0 x1 x2 (ValueIdx.ix2 i j)
      = ∑ n : Fin 1024, ((∑ d : Fin 10240, x0 (ValueIdx.ix2 i d) * x1 (ValueIdx.ix2 n d))
          * Cert.ReferenceIdeal.Read.val_main_v50 (F := Ideal) x0 (ValueIdx.ix2 i (0 : Fin 1)))
          * x2 (ValueIdx.ix2 n j) := by
  refine (val_main_v53_apply x0 x1 x2 (ValueIdx.ix2 i j)).trans ?_
  refine Finset.sum_congr rfl fun n _ => ?_
  have el : lidx_main_v53 (ValueIdx.ix2 i j) n = ValueIdx.ix2 i n :=
    funext fun a => Fin.ext (by match a with | ⟨0, _⟩ => rfl | ⟨1, _⟩ => rfl)
  have er : ridx_main_v53 (ValueIdx.ix2 i j) n = ValueIdx.ix2 n j :=
    funext fun a => Fin.ext (by match a with | ⟨0, _⟩ => rfl | ⟨1, _⟩ => rfl)
  rw [el, er]
  refine congrArg (· * x2 (ValueIdx.ix2 n j)) ?_
  refine (val_main_v52_apply (F := Ideal) x0 x1 (ValueIdx.ix2 i n)).trans ?_
  show val_main_v46 (F := Ideal) x0 x1 (ValueIdx.ix2 i n) * val_main_v51 (F := Ideal) x0 (ValueIdx.ix2 i n) = _
  have e51 : val_main_v51 (F := Ideal) x0 (ValueIdx.ix2 i n)
      = val_main_v50 (F := Ideal) x0 (ValueIdx.ix2 i (0 : Fin 1)) := by
    refine (val_main_v51_apply (F := Ideal) x0 (ValueIdx.ix2 i n)).trans ?_
    refine congrArg (val_main_v50 (F := Ideal) x0) ?_
    exact funext fun a => Fin.ext (by match a with | ⟨0, _⟩ => rfl | ⟨1, _⟩ => rfl)
  have e46 : val_main_v46 (F := Ideal) x0 x1 (ValueIdx.ix2 i n)
      = ∑ d : Fin 10240, x0 (ValueIdx.ix2 i d) * x1 (ValueIdx.ix2 n d) := by
    refine (val_main_v46_apply x0 x1 (ValueIdx.ix2 i n)).trans ?_
    refine Finset.sum_congr rfl fun d _ => ?_
    have e1 : lidx_main_v46 (ValueIdx.ix2 i n) d = ValueIdx.ix2 i d :=
      funext fun a => Fin.ext (by match a with | ⟨0, _⟩ => rfl | ⟨1, _⟩ => rfl)
    have e2 : val_main_v45 (F := Ideal) x1 (ridx_main_v46 (ValueIdx.ix2 i n) d)
        = x1 (ValueIdx.ix2 n d) := by
      refine (val_main_v45_apply (F := Ideal) x1 (ridx_main_v46 (ValueIdx.ix2 i n) d)).trans ?_
      refine congrArg x1 ?_
      exact funext fun a => Fin.ext (by match a with | ⟨0, _⟩ => rfl | ⟨1, _⟩ => rfl)
    rw [e1, e2]
  rw [e46, e51]

/-- The gate of row `i`: the float conversion of the row's comparison bit. -/
theorem refKeep_apply (x0 : FVec Ideal Cert.ReferenceIdeal.S8192x10240 .f32) (i : Fin 8192) :
    Cert.ReferenceIdeal.Read.val_main_v50 (F := Ideal) x0 (ValueIdx.ix2 i (0 : Fin 1))
      = (uitofp .f32 (Cert.ReferenceIdeal.Read.val_main_v48 (F := Ideal) x0) :
          FVec Ideal Cert.ReferenceIdeal.S8192 .f32) (ValueIdx.ix1 i) := by
  refine (val_main_v50_apply (F := Ideal) x0 (ValueIdx.ix2 i (0 : Fin 1))).trans ?_
  show FloatOps.uitofp .f32 (val_main_v49 (F := Ideal) x0 (ValueIdx.ix2 i (0 : Fin 1)))
      = FloatOps.uitofp .f32 (val_main_v48 (F := Ideal) x0 (ValueIdx.ix1 i))
  refine congrArg (FloatOps.uitofp .f32) ?_
  refine (val_main_v49_apply (F := Ideal) x0 (ValueIdx.ix2 i (0 : Fin 1))).trans ?_
  refine congrArg (val_main_v48 (F := Ideal) x0) ?_
  exact funext fun a => Fin.ext (by match a with | ⟨0, _⟩ => rfl)

end Cert.Hand
-- ==== Proof.Bridge.lean ====
/-
  The state the region writes is the reference program's state. Row i of the kernel's state is
  ∑ n (∑ d (ev[i,d]·k_i)·S[n,d])·A[n,j] with the gate k_i applied to the event stream's row BEFORE the first product;
  the reference's is ∑ n ((∑ d ev[i,d]·S[n,d])·k_i)·A[n,j] with the gate applied after it. The gate is a bit converted to
  a float, so k_i is 0 or 1, and on the extended reals x·0 = 0 and x·1 = x for every x: the two sums agree term by term,
  with no finiteness needed.
-/
import proofs.«151075_j88347477278870_1_alg».proof.Proof.KernelHead
import proofs.«151075_j88347477278870_1_alg».proof.Proof.KernelState
import proofs.«151075_j88347477278870_1_alg».proof.Proof.RefState

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The array the region wrote is the reference's state `%53` of the launch contents of the event stream, the sensing
    matrix and the adjacency matrix. -/
theorem state_eq (c : Dev nD) : (dats m 0 c).arrAt 4 cfg0.N
    = Cert.ReferenceIdeal.Read.val_main_v53 (F := Ideal) (m ((c.tc : Thread nD τ).loc main_arg0)) (m ((c.tc : Thread nD τ).loc main_arg1)) (m ((c.tc : Thread nD τ).loc main_arg2)) :=
  state_final m c (m ((c.tc : Thread nD τ).loc main_arg0)) (m ((c.tc : Thread nD τ).loc main_arg1)) (m ((c.tc : Thread nD τ).loc main_arg2))
    (Cert.ReferenceIdeal.Read.val_main_v48 (F := Ideal) (m ((c.tc : Thread nD τ).loc main_arg0)))
    (V_main_arg0 m c) (V_gate m c) (V_sensT m c) (V_adj m c) _
    (fun i j => (Cert.Hand.refState_apply _ _ _ i j).trans (by rw [Cert.Hand.refKeep_apply]))

end Cert.KernelIdeal.Hand

end
-- ==== Proof.RefTail.lean ====
import proofs.«151075_j88347477278870_1_alg».proof.Proof.Tail
import proofs.«151075_j88347477278870_1_alg».proof.Proof.RefRead

/-! The reference's result is the shared host chain applied to the reference's state.

After its state (the gated inner products contracted with the adjacency matrix) the reference applies
exactly the operations of `tail`, in the same order, to the same weights; and its loss is `loss` of
the adjacency matrix and its mask.  Both equalities hold by unfolding the definitions: the two
programs' shapes and shape records are the same literals. -/

noncomputable section

namespace Cert.Hand

open Idealize.ShloMosaic Idealize.ShloMosaic.TcCoe Idealize.SL.Sem Cert.ReferenceIdeal Cert.ReferenceIdeal.Read

/-- The reference's result as a function of its arguments is `tail` of its state and the weights. -/
theorem ref_val_eq_tail (x0 : FVec Ideal S8192x10240 .f32) (x1 : FVec Ideal S1024x10240 .f32)
    (x2 : FVec Ideal S1024x1024 .f32) (x4 : FVec Ideal S128x1024 .f32) (x5 : FVec Ideal S128 .f32)
    (x6 : FVec Ideal S64x128 .f32) (x7 : FVec Ideal S64 .f32) :
    val_main_v104 (F := Ideal) x0 x1 x2 x4 x5 x6 x7
      = tail (val_main_v53 (F := Ideal) x0 x1 x2) x4 x5 x6 x7 := by
  unfold val_main_v104 val_main_v103 val_main_v102 val_main_v101 val_main_cst_26 val_main_v100 val_main_v99 val_main_v98 val_main_v97 val_main_v96 val_main_v95 val_main_cst_25 val_main_v94 val_main_cst_24 val_main_v93 val_main_v92 val_main_v91 val_main_v90 val_main_v89 val_main_v88 val_main_call2_v0 val_main_call2_cst val_main_v87 val_main_v86 val_main_v85 val_main_v84 val_main_v83 val_main_v82 val_main_v81 val_main_v80 val_main_cst_23 val_main_v79 val_main_v78 val_main_v77 val_main_v76 val_main_cst_22 val_main_v75 val_main_v74 val_main_v73 val_main_cst_21 val_main_cst_20 val_main_v66 val_main_v64 val_main_v63 val_main_cst_16 val_main_v61 val_main_v60 val_main_v59 val_main_v58 val_main_v57
  unfold tail
  rfl

/-- The reference's result is `tail` of the reference's state and the weights. -/
theorem ref_result_eq (m : (ℓ : Loc nD τ sig) → Buf (Elt Ideal) ℓ) (c : Dev nD) :
    Cert.ReferenceIdeal.Value.res_main_v104 (F := Ideal) m c
      = tail (val_main_v53 (F := Ideal) (m ((c.tc : Thread nD τ).loc main_arg0))
            (m ((c.tc : Thread nD τ).loc main_arg1)) (m ((c.tc : Thread nD τ).loc main_arg2)))
          (m ((c.tc : Thread nD τ).loc main_arg4)) (m ((c.tc : Thread nD τ).loc main_arg5))
          (m ((c.tc : Thread nD τ).loc main_arg6)) (m ((c.tc : Thread nD τ).loc main_arg7)) :=
  (val_main_v104_eq (F := Ideal) m c).trans (ref_val_eq_tail _ _ _ _ _ _ _)

/-- The reference's loss, as a function of the adjacency matrix and its mask, is `loss`. -/
theorem ref_loss_val (x2 x3 : FVec Ideal S1024x1024 .f32) :
    Host.reduceAdd (mulf (Host.absf x2) x3) (constant (F := Ideal) S_ .f32 0x00000000#32)
        Facts₀.reducesTo_S1024x1024_S_d0_1 Facts₀.h_S_
      = loss x2 x3 := rfl

/-- The reference's loss is `loss` of the adjacency matrix and its mask. -/
theorem ref_loss_eq (m : (ℓ : Loc nD τ sig) → Buf (Elt Ideal) ℓ) (c : Dev nD) :
    Host.reduceAdd (mulf (Host.absf (m ((c.tc : Thread nD τ).loc main_arg2)))
          (m ((c.tc : Thread nD τ).loc main_arg3))) (constant (F := Ideal) S_ .f32 0x00000000#32)
        Facts₀.reducesTo_S1024x1024_S_d0_1 Facts₀.h_S_
      = loss (m ((c.tc : Thread nD τ).loc main_arg2)) (m ((c.tc : Thread nD τ).loc main_arg3)) := rfl

end Cert.Hand
-- ==== Proof.lean ====
/-
  The certificate of the fused sensing-and-adjacency program against its reference.
  Frames: each program's @main runs to the end, faults nowhere and leaves its eight argument arrays as launched — the
  two kernel programs by the run of their one pipelined region between the host stretches (the same argument at the
  word level and at the extended reals), the reference by its run as a sequence of host operations.
  Idealization: the kernel program's text read at the extended reals is its own idealization (nothing was rewritten).
  Equivalence at the extended reals: both programs return the policy tail (two dense layers, the sign of the mean
  logit's gradient, a softmax) of a state, the adjacency matrix as launched, and the same semantic loss; and the two
  states agree because the entropy gate is 0 or 1, so masking the event stream's rows before the sensing product equals
  masking the product's rows after it.
-/
import proofs.«151075_j88347477278870_1_alg».proof.Defs
import proofs.«151075_j88347477278870_1_alg».proof.Proof.Gen.Kernel
import proofs.«151075_j88347477278870_1_alg».proof.Proof.Gen.KernelIdeal
import proofs.«151075_j88347477278870_1_alg».proof.Proof.Gen.ReferenceIdeal
import proofs.«151075_j88347477278870_1_alg».proof.Proof.Gen.Pre_finite_inputs
import proofs.«151075_j88347477278870_1_alg».proof.Proof.RefRun
import proofs.«151075_j88347477278870_1_alg».proof.Proof.RefRead
import proofs.«151075_j88347477278870_1_alg».proof.Proof.BodyBits
import proofs.«151075_j88347477278870_1_alg».proof.Proof.KernelTail
import proofs.«151075_j88347477278870_1_alg».proof.Proof.Bridge
import proofs.«151075_j88347477278870_1_alg».proof.Proof.RefTail
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_r : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the policy tail of the reference's state, the adjacency matrix as launched and the semantic
    loss, all read at the kernel program's launch contents (the two memories agree on the arguments). -/
theorem algebraic : Cert.algebraic_KernelIdeal_ReferenceIdeal := by
  intro m ρ m' ρ' _ hagree
  refine ⟨fun c => Cert.Hand.tail (Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
      fun c => (m ((c.tc : Thread Cert.KernelIdeal.nD Cert.KernelIdeal.τ).loc Cert.KernelIdeal.main_arg2)),
      fun c => Cert.Hand.loss (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun _ h c => ?_) (Cert.KernelIdeal.Hand.run_named m ρ)
    obtain ⟨h0, hr⟩ := h c
    exact ⟨h0.trans (by rw [Cert.KernelIdeal.Hand.state_eq]), hr⟩
  · refine (θ_run Cert.ReferenceIdeal.defs _ _).mono (fun _ h c => ?_) (Cert.ReferenceIdeal.Value.run (F := Ideal) m' ρ')
    obtain ⟨h0, h1, h2, hr⟩ := h c
    obtain ⟨e0, e1, e2, e3, e4, e5, e6, e7⟩ := hagree c
    refine ⟨h0.trans ((Cert.Hand.ref_result_eq m' c).trans ?_), h1.trans e2, h2.trans ((Cert.Hand.ref_loss_eq m' c).trans ?_), hr⟩
    · rw [e0, e1, e2, e4, e5, e6, e7]
    · rw [e2, e3]

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
